-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S100x512x512 : Shape := ⟨3, ![100, 512, 512]⟩
abbrev S100x512 : Shape := ⟨2, ![100, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S100x512x512 : S_.BroadcastsInDim S100x512x512 (![] : Fin 0 → Fin S100x512x512.rank)
  reducesTo_S100x512x512_S_d0_1_2 : S100x512x512.ReducesTo [0, 1, 2] S_
  bcast_S_S100x512 : S_.BroadcastsInDim S100x512 (![] : Fin 0 → Fin S100x512.rank)
  reducesTo_S100x512_S_d0_1 : S100x512.ReducesTo [0, 1] S_

variable [Facts]

def fn {F : FTy → Type} [FloatOps F] (main_arg0 : FVec F S4096x512 .f32) (main_arg1 : FVec F S100x512x512 .f32) (main_arg2 : FVec F S100x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S100x512x512 .f32 := Host.absf main_arg1
  let main_cst_0 : FVec F S_ .f32 := constant S_ .f32 0x7F800000#32
  let main_v5 : FVec F S100x512x512 .f32 := broadcastInDim S100x512x512 ![] bcast_S_S100x512x512 main_cst_0
  let main_v6 : IVec S100x512x512 1 := cmpf .olt main_v4 main_v5
  let main_c_1 : IVec S_ 1 := constantI S_ 1 1#1
  let main_v7 : IVec S_ 1 := (fun x v => Host.reduce IntOp.andi x v reducesTo_S100x512x512_S_d0_1_2 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  main_v13
-- ==== Kernel.lean ====
abbrev S4096x512 : Shape := ⟨2, ![4096, 512]⟩
abbrev S100x512x512 : Shape := ⟨3, ![100, 512, 512]⟩
abbrev S100x512 : Shape := ⟨2, ![100, 512]⟩
abbrev S100x4096 : Shape := ⟨2, ![100, 4096]⟩
abbrev S512x512 : Shape := ⟨2, ![512, 512]⟩
abbrev S8x512x512 : Shape := ⟨3, ![8, 512, 512]⟩
abbrev S8x512 : Shape := ⟨2, ![8, 512]⟩
abbrev S512x4096 : Shape := ⟨2, ![512, 4096]⟩
abbrev S1x512 : Shape := ⟨2, ![1, 512]⟩
abbrev S512 : Shape := ⟨1, ![512]⟩
abbrev S4096x100 : Shape := ⟨2, ![4096, 100]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S100x512x512, .f32⟩
  | .hbm, ⟨2, _⟩ => ⟨S100x512, .f32⟩
  | .hbm, ⟨3, _⟩ => ⟨S100x4096, .f32⟩
  | .hbm, ⟨4, _⟩ => ⟨S4096x100, .f32⟩
  | .local _ .vmem, ⟨0, _⟩ => ⟨S512x512, .f32⟩
  | .local _ .vmem, ⟨1, _⟩ => ⟨S512x512, .f32⟩
  | .local _ .vmem, ⟨2, _⟩ => ⟨S8x512x512, .f32⟩
  | .local _ .vmem, ⟨3, _⟩ => ⟨S8x512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S8x512x512_S8x512x512_0_0_0 : ∀ a, (![0, 0, 0] : Fin 3 → Nat) a + S8x512x512.size a ≤ S8x512x512.size a
  h_S8x512x512 : 0 < S8x512x512.numel
  shapeCasts_S8x512x512_S4096x512 : S8x512x512.ShapeCasts S4096x512
  slices_S512x4096_o0_0_S512x512 : S512x4096.Slices ![0, 0] S512x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  reduces_S512x512_S512 : S512x512.Reduces [1] S512
  slices_S512x4096_o0_512_S512x512 : S512x4096.Slices ![0, 512] S512x512
  inb_S8x512_S1x512_1_0 : ∀ a, (![1, 0] : Fin 2 → Nat) a + S1x512.size a ≤ S8x512.size a
  slices_S512x4096_o0_1024_S512x512 : S512x4096.Slices ![0, 1024] S512x512
  inb_S8x512_S1x512_2_0 : ∀ a, (![2, 0] : Fin 2 → Nat) a + S1x512.size a ≤ S8x512.size a
  slices_S512x4096_o0_1536_S512x512 : S512x4096.Slices ![0, 1536] S512x512
  inb_S8x512_S1x512_3_0 : ∀ a, (![3, 0] : Fin 2 → Nat) a + S1x512.size a ≤ S8x512.size a
  slices_S512x4096_o0_2048_S512x512 : S512x4096.Slices ![0, 2048] S512x512
  inb_S8x512_S1x512_4_0 : ∀ a, (![4, 0] : Fin 2 → Nat) a + S1x512.size a ≤ S8x512.size a
  slices_S512x4096_o0_2560_S512x512 : S512x4096.Slices ![0, 2560] S512x512
  inb_S8x512_S1x512_5_0 : ∀ a, (![5, 0] : Fin 2 → Nat) a + S1x512.size a ≤ S8x512.size a
  slices_S512x4096_o0_3072_S512x512 : S512x4096.Slices ![0, 3072] S512x512
  inb_S8x512_S1x512_6_0 : ∀ a, (![6, 0] : Fin 2 → Nat) a + S1x512.size a ≤ S8x512.size a
  slices_S512x4096_o0_3584_S512x512 : S512x4096.Slices ![0, 3584] S512x512
  inb_S8x512_S1x512_7_0 : ∀ a, (![7, 0] : Fin 2 → Nat) a + S1x512.size a ≤ S8x512.size a
  transposes_S100x4096_S4096x100_1_0 : S100x4096.Transposes [1, 0] S4096x100
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8x512x512.size a < S100x512x512.size a
  hwx0_1 : ∀ i : grid0.Coords, EltTy.bits .f32 = 32 ∨ (Rect.unit (s := S100x512x512) (fun a => cc0_transform_1 i a * S8x512x512.size a) (fun a => (Pipeline.Clip.of (cc0_transform_1 i a) (S8x512x512.size a) (S100x512x512.size a)).extent (S8x512x512.size a)) fun a => Pipeline.Clip.inb (Pipeline.Clip.ok_of (hstart0_1 i a))).WholeWords (EltTy.packing .f32)
  hwxs0_1 : ∀ i : grid0.Coords, EltTy.bits .f32 = 32 ∨ (Rect.unit (s := S8x512x512) (fun _ => 0) (fun a => (Pipeline.Clip.of (cc0_transform_1 i a) (S8x512x512.size a) (S100x512x512.size a)).extent (S8x512x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x512.size a < S100x512.size a
  hwx0_2 : ∀ i : grid0.Coords, EltTy.bits .f32 = 32 ∨ (Rect.unit (s := S100x512) (fun a => cc0_transform_2 i a * S8x512.size a) (fun a => (Pipeline.Clip.of (cc0_transform_2 i a) (S8x512.size a) (S100x512.size a)).extent (S8x512.size a)) fun a => Pipeline.Clip.inb (Pipeline.Clip.ok_of (hstart0_2 i a))).WholeWords (EltTy.packing .f32)
  hwxs0_2 : ∀ i : grid0.Coords, EltTy.bits .f32 = 32 ∨ (Rect.unit (s := S8x512) (fun _ => 0) (fun a => (Pipeline.Clip.of (cc0_transform_2 i a) (S8x512.size a) (S100x512.size a)).extent (S8x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x512.size a < S100x4096.size a
  hwx0_3 : ∀ i : grid0.Coords, EltTy.bits .f32 = 32 ∨ (Rect.unit (s := S100x4096) (fun a => cc0_transform_3 i a * S8x512.size a) (fun a => (Pipeline.Clip.of (cc0_transform_3 i a) (S8x512.size a) (S100x4096.size a)).extent (S8x512.size a)) fun a => Pipeline.Clip.inb (Pipeline.Clip.ok_of (hstart0_3 i a))).WholeWords (EltTy.packing .f32)
  hwxs0_3 : ∀ i : grid0.Coords, EltTy.bits .f32 = 32 ∨ (Rect.unit (s := S8x512) (fun _ => 0) (fun a => (Pipeline.Clip.of (cc0_transform_3 i a) (S8x512.size a) (S100x4096.size a)).extent (S8x512.size a)) fun a => (Nat.zero_add _).trans_le (Pipeline.Clip.extent_le (Pipeline.Clip.ok_of (hstart0_3 i a)))).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S8x512x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S8x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S8x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S100x512x512 : Shape := ⟨3, ![100, 512, 512]⟩
abbrev S100x512 : Shape := ⟨2, ![100, 512]⟩
abbrev S4096x100x512 : Shape := ⟨3, ![4096, 100, 512]⟩
abbrev S1x100x512 : Shape := ⟨3, ![1, 100, 512]⟩
abbrev S_ : Shape := ⟨0, ![]⟩
abbrev S4096x100 : Shape := ⟨2, ![4096, 100]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S100x512x512, .f32⟩
  | .hbm, ⟨2, _⟩ => ⟨S100x512, .f32⟩
  | .hbm, ⟨3, _⟩ => ⟨S4096x100x512, .f32⟩
  | .hbm, ⟨4, _⟩ => ⟨S1x100x512, .f32⟩
  | .hbm, ⟨5, _⟩ => ⟨S4096x100x512, .f32⟩
  | .hbm, ⟨6, _⟩ => ⟨S4096x100x512, .f32⟩
  | .hbm, ⟨7, _⟩ => ⟨S4096x100x512, .f32⟩
  | .hbm, ⟨8, _⟩ => ⟨S_, .f32⟩
  | .hbm, ⟨9, _⟩ => ⟨S4096x100, .f32⟩
  | .hbm, ⟨10, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S100x512_S1x100x512_1_2 : S100x512.BroadcastsInDim S1x100x512 (![1, 2] : Fin 2 → Fin S1x100x512.rank)
  bcast_S1x100x512_S4096x100x512_0_1_2 : S1x100x512.BroadcastsInDim S4096x100x512 (![0, 1, 2] : Fin 3 → Fin S4096x100x512.rank)
  reducesTo_S4096x100x512_S4096x100_d2 : S4096x100x512.ReducesTo [2] S4096x100
  h_S_ : 0 < S_.numel
  dot_S4096x512_S100x512x512_S4096x100x512_1_2_0_01_n_n_wf : DotDims.WF S4096x512 S100x512x512 S4096x100x512 [1] [2] [0] [0, 1] [] []

variable [Facts₀]

def dot_S4096x512_S100x512x512_S4096x100x512_1_2_0_01_n_n : DotDims S4096x512 S100x512x512 S4096x100x512 where
  lhsContracting := [1]
  rhsContracting := [2]
  lhsNonContracting := [0]
  rhsNonContracting := [0, 1]
  lhsBatch := []
  rhsBatch := []
  wf := dot_S4096x512_S100x512x512_S4096x100x512_1_2_0_01_n_n_wf

class Facts : Prop extends Facts₀ where

variable [Facts]
-- ==== Proof.BodyBits.lean ====
/-
  What one run of the kernel body leaves in its four staging buffers, for any float instance.

  The body reads the whole feature block `x` (512 × 512), the whole block `a` of eight matrices (8 × 512 × 512) and
  the eight bias rows `b` (8 × 512). It forms ONE product `p = x · a'ᵀ` (512 × 4096, `a'` the eight matrices stacked
  along their rows) and then, for each `j < 8`, stores into row `j` of the result buffer the vector
  `sqrt (Σ_e (p[·, 512 j + e] + b[j, e])²)`. The eight stored rows tile the 8 × 512 result buffer, so what the buffer
  holds afterwards is a function of the three inputs alone (`stored`); the three input buffers are left as found.
-/
import proofs.«131704_j6150393168265_2_alg».proof.Proof.Gen.Kernel.Frame
import proofs.«131704_j6150393168265_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole feature block. -/
abbrev rX : Rect S512x512 := Rect.unit (s := S512x512) ![0, 0] S512x512.size inb_S512x512_S512x512_0_0
/-- The whole block of eight matrices. -/
abbrev rA : Rect S8x512x512 := Rect.unit (s := S8x512x512) ![0, 0, 0] S8x512x512.size inb_S8x512x512_S8x512x512_0_0_0
/-- Row `j` of an 8 × 512 buffer, `j = 0 … 7`. -/
abbrev row0 : Rect S8x512 := Rect.unit (s := S8x512) ![0, 0] S1x512.size inb_S8x512_S1x512_0_0
abbrev row1 : Rect S8x512 := Rect.unit (s := S8x512) ![1, 0] S1x512.size inb_S8x512_S1x512_1_0
abbrev row2 : Rect S8x512 := Rect.unit (s := S8x512) ![2, 0] S1x512.size inb_S8x512_S1x512_2_0
abbrev row3 : Rect S8x512 := Rect.unit (s := S8x512) ![3, 0] S1x512.size inb_S8x512_S1x512_3_0
abbrev row4 : Rect S8x512 := Rect.unit (s := S8x512) ![4, 0] S1x512.size inb_S8x512_S1x512_4_0
abbrev row5 : Rect S8x512 := Rect.unit (s := S8x512) ![5, 0] S1x512.size inb_S8x512_S1x512_5_0
abbrev row6 : Rect S8x512 := Rect.unit (s := S8x512) ![6, 0] S1x512.size inb_S8x512_S1x512_6_0
abbrev row7 : Rect S8x512 := Rect.unit (s := S8x512) ![7, 0] S1x512.size inb_S8x512_S1x512_7_0

/-! ## What the body leaves in the result buffer -/

/-- The one product `x · a'ᵀ` all eight rows are cut from. -/
def prod (x : Vec F S512x512 .f32) (a : Vec F S8x512x512 .f32) : FVec F S512x4096 .f32 :=
  k0_pay4 (View.ld x rX) (View.ld a rA)

/-- The result buffer after the body: its eight row stores as pieces, the last store first. -/
def stored (x : Vec F S512x512 .f32) (a : Vec F S8x512x512 .f32) (b : Vec F S8x512 .f32) : Vec F S8x512 .f32 :=
  View.canon [⟨row7, k0_pay3 (prod x a) (View.ld b row7)⟩,
    ⟨row6, k0_pay2 (prod x a) (View.ld b row6)⟩,
    ⟨row5, k0_pay1 (k0_pay11 (prod x a) (View.ld b row5))⟩,
    ⟨row4, k0_pay10 (prod x a) (View.ld b row4)⟩,
    ⟨row3, k0_pay9 (prod x a) (View.ld b row3)⟩,
    ⟨row2, k0_pay8 (k0_pay7 (View.ld x rX) (View.ld a rA) (View.ld b row2))⟩,
    ⟨row1, k0_pay6 (View.ld x rX) (View.ld a rA) (View.ld b row1)⟩,
    ⟨row0, k0_pay5 (View.ld x rX) (View.ld a rA) (View.ld b row0)⟩]

/-- The eight rows tile the buffer, so they cover it. -/
theorem rows_cover (p0 p1 p2 p3 p4 p5 p6 p7 : Vec F S1x512 .f32) (y : S8x512.Idx) :
    ∃ pc ∈ ([⟨row7, p7⟩, ⟨row6, p6⟩, ⟨row5, p5⟩, ⟨row4, p4⟩, ⟨row3, p3⟩, ⟨row2, p2⟩, ⟨row1, p1⟩, ⟨row0, p0⟩] :
      List (View.Piece (Elt F) S8x512 .f32)), y ∈ pc.1.set :=
  View.cover_of_tiled [⟨row7, p7⟩, ⟨row6, p6⟩, ⟨row5, p5⟩, ⟨row4, p4⟩, ⟨row3, p3⟩, ⟨row2, p2⟩, ⟨row1, p1⟩, ⟨row0, p0⟩]
    S1x512.size (by rfl) y

/-! ## The body's triple -/

set_option maxHeartbeats 4000000 in
/-- The body on whole staging buffers, the three inputs at contents `x`, `a`, `b` and the result buffer at anything,
    runs to the continuation with the inputs as they were and the result buffer at `stored x a b`. -/
theorem sound_kernel (c : Dev nD) (E : Set ℕ) (i : grid0.Coords)
    (arg2 : Memref sig .tc .vmem S512x512 .f32) (harg2 : arg2.IsWhole)
    (arg3 : Memref sig .tc .vmem S8x512x512 .f32) (harg3 : arg3.IsWhole)
    (arg4 : Memref sig .tc .vmem S8x512 .f32) (harg4 : arg4.IsWhole)
    (arg5 : Memref sig .tc .vmem S8x512 .f32) (harg5 : arg5.IsWhole)
    (x : Vec F S512x512 .f32) (a : Vec F S8x512x512 .f32) (b : Vec F S8x512 .f32) (K : PUnit → sProp 𝕄) :
    iprop(owns (c : Thread nD τ) arg2 fullShare x ∗ owns (c : Thread nD τ) arg3 fullShare a
        ∗ owns (c : Thread nD τ) arg4 fullShare b ∗ (∃ d, owns (c : Thread nD τ) arg5 fullShare d)
        ∗ (iprop(owns (c : Thread nD τ) arg2 fullShare x ∗ owns (c : Thread nD τ) arg3 fullShare a
            ∗ owns (c : Thread nD τ) arg4 fullShare b ∗ owns (c : Thread nD τ) arg5 fullShare (stored x a b)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (rows_cover _ _ _ _ _ _ _ _)

end Cert.Kernel.Body

end
-- ==== Proof.DataBits.lean ====
/-
  The pipeline's proof data around the kernel body.

  The grid has 13 × 8 points `(ki, bi)`. The feature window's blocks (512 rows) tile its array. The windows of the
  matrices `A` (100 × 512 × 512, blocks of 8 matrices), of the bias `b` (100 × 512, blocks of 8 rows) and of the
  result (100 × 4096, blocks of 8 × 512) do NOT tile the 100 classes: the thirteenth block holds classes 96 … 99 and
  four more rows past the array's end, about which nothing is known. After the body, the `A` and `b` buffers hold
  their blocks on the rows inside the array (filled out with zero words here, which nothing reads), and the result
  buffer holds `out c t`, a parameter: the frame of the word-level program does not name it, the value proof does.
  Whether or not a point fetches `A` and `b` (they are fetched only when `bi = 0`), the body finds their buffers at
  the block of the point's class tile on the rows inside the array.
-/
import proofs.«131704_j6150393168265_2_alg».proof.Proof.BodyBits

set_option maxRecDepth 16384

noncomputable section

namespace Cert.Kernel.Data

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of eight matrices at point `t` on the rows inside the array, zero words past the array's end. -/
def blkA (c : Dev nD) (t : Fin cfg0.N) : S8x512x512.Idx → Elt F .f32 :=
  win0_1.fill (grid0.coords t) (fun _ => Scalar.ofBits .f32 0#32) (iblk m c 1 t)
/-- The block of eight bias rows likewise. -/
def blkB (c : Dev nD) (t : Fin cfg0.N) : S8x512.Idx → Elt F .f32 :=
  win0_2.fill (grid0.coords t) (fun _ => Scalar.ofBits .f32 0#32) (iblk m c 2 t)

/-- The proof data: the arrays as the region finds them; after the body the feature buffer at its block, the
    `A` and `b` buffers at `blkA`, `blkB`, the result buffer at `out c t`. -/
def dats (out : Dev nD → Fin cfg0.N → S8x512.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => blkA m c t
    | ⟨2, _⟩ => blkB m c t
    | ⟨3, _⟩ => out c t
  Φ _ := Pipeline.ΦA spec0 c
  q _ := fullShare
  owed _ := 0

variable (out : Dev nD → Fin cfg0.N → S8x512.Idx → Elt F .f32)

theorem A_eq (c : Dev nD) (w : Fin cfg0.W) : (dats m out 0 c).A w = V m c (Pipeline.arrRef spec0 w) := by
  dsimp only [dats]

theorem after0_0 (c : Dev nD) (t : Fin cfg0.N) : (dats m out 0 c).after 0 t = iblk m c 0 t := by dsimp only [dats]
theorem after0_1 (c : Dev nD) (t : Fin cfg0.N) : (dats m out 0 c).after 1 t = blkA m c t := by dsimp only [dats]
theorem after0_2 (c : Dev nD) (t : Fin cfg0.N) : (dats m out 0 c).after 2 t = blkB m c t := by dsimp only [dats]
theorem after0_3 (c : Dev nD) (t : Fin cfg0.N) : (dats m out 0 c).after 3 t = out c t := by dsimp only [dats]

/-- Two points with one class tile cut the `A` block alike: the cut is a function of the block index. -/
theorem clip1_congr (t t' : Fin cfg0.N) (h : (cfg0.win 1).index t = (cfg0.win 1).index t') :
    (cfg0.win 1).clip (cfg0.grid.coords t) = (cfg0.win 1).clip (cfg0.grid.coords t') := by
  funext a
  have e : cc0_transform_1 (grid0.coords t) a = cc0_transform_1 (grid0.coords t') a := congrFun h a
  show Pipeline.Clip.of (cc0_transform_1 (grid0.coords t) a) _ _ = Pipeline.Clip.of (cc0_transform_1 (grid0.coords t') a) _ _
  rw [e]
theorem clip2_congr (t t' : Fin cfg0.N) (h : (cfg0.win 2).index t = (cfg0.win 2).index t') :
    (cfg0.win 2).clip (cfg0.grid.coords t) = (cfg0.win 2).clip (cfg0.grid.coords t') := by
  funext a
  have e : cc0_transform_2 (grid0.coords t) a = cc0_transform_2 (grid0.coords t') a := congrFun h a
  show Pipeline.Clip.of (cc0_transform_2 (grid0.coords t) a) _ _ = Pipeline.Clip.of (cc0_transform_2 (grid0.coords t') a) _ _
  rw [e]

/-- The feature buffer holds its block at every point. -/
theorem before0_0 (c : Dev nD) (t : Fin cfg0.N) (d) : (dats m out 0 c).before 0 t d = iblk m c 0 t :=
  before0_0_of m (dats m out 0 c) (A_eq m out c 0) (after0_0 m out c) t d

/-- The `A` buffer holds, at every point, its block on the rows inside the array and `d` (anything) past them. -/
theorem before0_1 (c : Dev nD) (t : Fin cfg0.N) (d) :
    (dats m out 0 c).before 1 t d = win0_1.fill (grid0.coords t) d (iblk m c 1 t) :=
  ((dats m out 0 c).before_in_eq_fetched 1 rfl (fun _ => rfl) (clip1_congr) (fun t => by
      rw [after0_1]; unfold blkA
      refine (win0_1.cut_fill _ _ _).trans ?_
      unfold Dat.blockOf iblk; rw [A_eq]) t d).trans
    (by unfold Dat.fetched Dat.blockOf iblk; rw [A_eq])

/-- The `b` buffer likewise. -/
theorem before0_2 (c : Dev nD) (t : Fin cfg0.N) (d) :
    (dats m out 0 c).before 2 t d = win0_2.fill (grid0.coords t) d (iblk m c 2 t) :=
  ((dats m out 0 c).before_in_eq_fetched 2 rfl (fun _ => rfl) (clip2_congr) (fun t => by
      rw [after0_2]; unfold blkB
      refine (win0_2.cut_fill _ _ _).trans ?_
      unfold Dat.blockOf iblk; rw [A_eq]) t d).trans
    (by unfold Dat.fetched Dat.blockOf iblk; rw [A_eq])

end Cert.Kernel.Data

end
-- ==== Proof.ObligBits.lean ====
/-
  The body obligation at every grid point, in two forms, for any float instance.

  At point `t` the body is handed the feature buffer at its block, the `A` and `b` buffers at their blocks on the rows
  inside the array and ANYTHING (`d₁`, `d₂`) on the rows past the array's end, and the result buffer at anything. It
  leaves the inputs as found and the result buffer at `stored` of the three.
  * Forgetting the result window (`obligation_forget`): nothing is said of what the result buffer holds. This is all a
    frame needs.
  * Naming it (`obligation_named`): the obligation states the result buffer only on the rows inside the array; it
    holds as soon as those rows of `stored` do not depend on `d₁`, `d₂` (`hout`): row `j` of the result is computed
    from matrix `j` and bias row `j` alone, and the result block is cut at the same class as the `A` and `b` blocks.
-/
import proofs.«131704_j6150393168265_2_alg».proof.Proof.DataBits

set_option maxRecDepth 16384

noncomputable section

namespace Cert.Kernel.Oblig

open Cert.Kernel Cert.Kernel.Gen Cert.Kernel.Body Cert.Kernel.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → S8x512.Idx → Elt F .f32)

/-- The result window is the one a frame forgets. -/
def forgets : Fin 4 → Bool := fun w => w.val == 3

/-! ## Forgetting the result window -/

def preForget (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ X, owns (c : Thread nD τ) (st0_3 t) fullShare X))

def postForget (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ (∃ d, owns (c : Thread nD τ) (st0_1 t) fullShare (win0_1.fill (grid0.coords t) d (win0_1.cut (grid0.coords t) ((dats m out 0 c).after 1 t))))
    ∗ (∃ d, owns (c : Thread nD τ) (st0_2 t) fullShare (win0_2.fill (grid0.coords t) d (win0_2.cut (grid0.coords t) ((dats m out 0 c).after 2 t))))
    ∗ (∃ X, owns (c : Thread nD τ) (st0_3 t) fullShare X))

theorem sound_forget (c : Dev nD) (t : Fin cfg0.N) :
    preForget m out c t ⊢ wp frame (wpE (defs₀ (F := F)) Variants.none c none) Set.univ (bodyAt0 t) (fun _ => postForget m out c t) := by
  unfold preForget postForget bodyAt0
  simp only [before0_0, before0_1, before0_2]
  rw [show (dats m out 0 c).Φ t.succ = (dats m out 0 c).Φ t.castSucc from rfl,
    show (dats m out 0 c).owesAt () t.succ = (dats m out 0 c).owesAt () t.castSucc from rfl,
    after0_0, after0_1, after0_2]
  have hA : win0_1.cut (grid0.coords t) (blkA m c t) = iblk m c 1 t := win0_1.cut_fill _ _ _
  have hB : win0_2.cut (grid0.coords t) (blkB m c t) = iblk m c 2 t := win0_2.cut_fill _ _ _
  rw [hA, hB]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem obligation_forget (c : Dev nD) :
    BodyObligationLoose (dats (F := F) m out 0 c) (defs₀ (F := F)) Variants.none () Set.univ forgets := fun t => by
  rw [bigSep_W0, bigSep_W0]
  exact sound_forget m out c t

/-! ## Naming the result window -/

def preNamed (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d)))

def postNamed (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ (∃ d, owns (c : Thread nD τ) (st0_1 t) fullShare (win0_1.fill (grid0.coords t) d (win0_1.cut (grid0.coords t) ((dats m out 0 c).after 1 t))))
    ∗ (∃ d, owns (c : Thread nD τ) (st0_2 t) fullShare (win0_2.fill (grid0.coords t) d (win0_2.cut (grid0.coords t) ((dats m out 0 c).after 2 t))))
    ∗ (∃ d, owns (c : Thread nD τ) (st0_3 t) fullShare (win0_3.fill (grid0.coords t) d (win0_3.cut (grid0.coords t) ((dats m out 0 c).after 3 t)))))

theorem sound_named
    (hout : ∀ c t d1 d2, win0_3.cut (grid0.coords t)
        (stored (iblk m c 0 t) (win0_1.fill (grid0.coords t) d1 (iblk m c 1 t)) (win0_2.fill (grid0.coords t) d2 (iblk m c 2 t)))
      = win0_3.cut (grid0.coords t) (out c t))
    (c : Dev nD) (t : Fin cfg0.N) :
    preNamed m out c t ⊢ wp frame (wpE (defs₀ (F := F)) Variants.none c none) Set.univ (bodyAt0 t) (fun _ => postNamed m out c t) := by
  unfold preNamed postNamed bodyAt0
  simp only [before0_0, before0_1, before0_2]
  rw [show (dats m out 0 c).Φ t.succ = (dats m out 0 c).Φ t.castSucc from rfl,
    show (dats m out 0 c).owesAt () t.succ = (dats m out 0 c).owesAt () t.castSucc from rfl,
    after0_0, after0_1, after0_2, after0_3]
  have hA : win0_1.cut (grid0.coords t) (blkA m c t) = iblk m c 1 t := win0_1.cut_fill _ _ _
  have hB : win0_2.cut (grid0.coords t) (blkB m c t) = iblk m c 2 t := win0_2.cut_fill _ _ _
  rw [hA, hB]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (stored (iblk m c 0 t) (win0_1.fill (grid0.coords t) d1 (iblk m c 1 t)) (win0_2.fill (grid0.coords t) d2 (iblk m c 2 t)))
  rw [win0_3.fill_congr_cut (grid0.coords t) (hout c t d1 d2)]
  iexact H3

theorem obligation_named
    (hout : ∀ c t d1 d2, win0_3.cut (grid0.coords t)
        (stored (iblk m c 0 t) (win0_1.fill (grid0.coords t) d1 (iblk m c 1 t)) (win0_2.fill (grid0.coords t) d2 (iblk m c 2 t)))
      = win0_3.cut (grid0.coords t) (out c t))
    (c : Dev nD) :
    BodyObligationLoose (dats (F := F) m out 0 c) (defs₀ (F := F)) Variants.none () Set.univ := fun t => by
  rw [bigSep_W0, bigSep_W0]
  exact sound_named m out hout c t

end Cert.Kernel.Oblig

end
-- ==== Proof.FrameBits.lean ====
/-
  The frame of the word-level program: it runs to the end, faults nowhere, and leaves its three argument arrays as
  they were.

  Nothing is said of what the kernel leaves in the result array: the rows of the thirteenth class tile past the
  array's end are computed from words nothing names, and the frame does not need them. The result window is
  forgotten; the three inputs are never written, so each ends at its contents at the region's entry, which are the
  contents at launch. The one host operation after the region (the transpose) writes only its own result buffer.
-/
import proofs.«131704_j6150393168265_2_alg».proof.Proof.ObligBits

set_option maxRecDepth 16384

noncomputable section

namespace Cert.Kernel.FrameBits

open Cert.Kernel Cert.Kernel.Gen Cert.Kernel.Body Cert.Kernel.Data Cert.Kernel.Oblig
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The forgotten window's contents are never read: any value does. -/
def anyOut : Dev nD → Fin cfg0.N → S8x512.Idx → Elt F .f32 := fun _ _ _ => Scalar.ofBits .f32 0#32

/-- The host operation after the region writes the transposed result and nothing else. -/
theorem tail_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective (τ := τ) _ hb)

set_option backward.isDefEq.respectTransparency.types false in
/-- Every weakly fair execution terminates; each array of the pipeline ends at contents the forgetting proof data
    allows (an input: its entry contents), every other buffer but the transposed result as the region found it. -/
theorem run_main : θ_run defs (onTc (τ := τ) (main (F := F))) (s₀ m ρ)
    (Pipeline.RDat.FramePostR (cfgs 0) (fun c => (dats m anyOut 0 c).toRForget forgets) {main_v1} (V m)) :=
  Pipeline.RDat.θ_run_frame_around_T cfgs (0 : Fin 1) launch0 defs₀ Variants.none
    (fun c => (dats m anyOut 0 c).toRForget forgets) {main_v1} m ρ main
    (hbody := fun c => (obligation_forget m anyOut c).toRForget)
    (hshare := fun c => ((dats m anyOut 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m anyOut) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (congrFun (((dats m anyOut 0 c).toRForget forgets).ArrAt_in (0 : Fin 4) rfl _) _).mp ((h c).1 0)
    have h1 := (congrFun (((dats m anyOut 0 c).toRForget forgets).ArrAt_in (1 : Fin 4) rfl _) _).mp ((h c).1 1)
    have h2 := (congrFun (((dats m anyOut 0 c).toRForget forgets).ArrAt_in (2 : Fin 4) rfl _) _).mp ((h c).1 2)
    exact ⟨h0.trans ((A_eq m anyOut c 0).trans (V_main_arg0 m c)),
      h1.trans ((A_eq m anyOut c 1).trans (V_main_arg1 m c)),
      h2.trans ((A_eq m anyOut c 2).trans (V_main_arg2 m c))⟩) (run_main m ρ)

end Cert.Kernel.FrameBits

end
-- ==== Proof.BodyIdeal.lean ====
/-
  What one run of the kernel body leaves in its four staging buffers, for any float instance.

  The body reads the whole feature block `x` (512 × 512), the whole block `a` of eight matrices (8 × 512 × 512) and
  the eight bias rows `b` (8 × 512). It forms ONE product `p = x · a'ᵀ` (512 × 4096, `a'` the eight matrices stacked
  along their rows) and then, for each `j < 8`, stores into row `j` of the result buffer the vector
  `sqrt (Σ_e (p[·, 512 j + e] + b[j, e])²)`. The eight stored rows tile the 8 × 512 result buffer, so what the buffer
  holds afterwards is a function of the three inputs alone (`stored`); the three input buffers are left as found.
-/
import proofs.«131704_j6150393168265_2_alg».proof.Proof.Gen.KernelIdeal.Frame
import proofs.«131704_j6150393168265_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole feature block. -/
abbrev rX : Rect S512x512 := Rect.unit (s := S512x512) ![0, 0] S512x512.size inb_S512x512_S512x512_0_0
/-- The whole block of eight matrices. -/
abbrev rA : Rect S8x512x512 := Rect.unit (s := S8x512x512) ![0, 0, 0] S8x512x512.size inb_S8x512x512_S8x512x512_0_0_0
/-- Row `j` of an 8 × 512 buffer, `j = 0 … 7`. -/
abbrev row0 : Rect S8x512 := Rect.unit (s := S8x512) ![0, 0] S1x512.size inb_S8x512_S1x512_0_0
abbrev row1 : Rect S8x512 := Rect.unit (s := S8x512) ![1, 0] S1x512.size inb_S8x512_S1x512_1_0
abbrev row2 : Rect S8x512 := Rect.unit (s := S8x512) ![2, 0] S1x512.size inb_S8x512_S1x512_2_0
abbrev row3 : Rect S8x512 := Rect.unit (s := S8x512) ![3, 0] S1x512.size inb_S8x512_S1x512_3_0
abbrev row4 : Rect S8x512 := Rect.unit (s := S8x512) ![4, 0] S1x512.size inb_S8x512_S1x512_4_0
abbrev row5 : Rect S8x512 := Rect.unit (s := S8x512) ![5, 0] S1x512.size inb_S8x512_S1x512_5_0
abbrev row6 : Rect S8x512 := Rect.unit (s := S8x512) ![6, 0] S1x512.size inb_S8x512_S1x512_6_0
abbrev row7 : Rect S8x512 := Rect.unit (s := S8x512) ![7, 0] S1x512.size inb_S8x512_S1x512_7_0

/-! ## What the body leaves in the result buffer -/

/-- The one product `x · a'ᵀ` all eight rows are cut from. -/
def prod (x : Vec F S512x512 .f32) (a : Vec F S8x512x512 .f32) : FVec F S512x4096 .f32 :=
  k0_pay4 (View.ld x rX) (View.ld a rA)

/-- The result buffer after the body: its eight row stores as pieces, the last store first. -/
def stored (x : Vec F S512x512 .f32) (a : Vec F S8x512x512 .f32) (b : Vec F S8x512 .f32) : Vec F S8x512 .f32 :=
  View.canon [⟨row7, k0_pay3 (prod x a) (View.ld b row7)⟩,
    ⟨row6, k0_pay2 (prod x a) (View.ld b row6)⟩,
    ⟨row5, k0_pay1 (k0_pay11 (prod x a) (View.ld b row5))⟩,
    ⟨row4, k0_pay10 (prod x a) (View.ld b row4)⟩,
    ⟨row3, k0_pay9 (prod x a) (View.ld b row3)⟩,
    ⟨row2, k0_pay8 (k0_pay7 (View.ld x rX) (View.ld a rA) (View.ld b row2))⟩,
    ⟨row1, k0_pay6 (View.ld x rX) (View.ld a rA) (View.ld b row1)⟩,
    ⟨row0, k0_pay5 (View.ld x rX) (View.ld a rA) (View.ld b row0)⟩]

/-- The eight rows tile the buffer, so they cover it. -/
theorem rows_cover (p0 p1 p2 p3 p4 p5 p6 p7 : Vec F S1x512 .f32) (y : S8x512.Idx) :
    ∃ pc ∈ ([⟨row7, p7⟩, ⟨row6, p6⟩, ⟨row5, p5⟩, ⟨row4, p4⟩, ⟨row3, p3⟩, ⟨row2, p2⟩, ⟨row1, p1⟩, ⟨row0, p0⟩] :
      List (View.Piece (Elt F) S8x512 .f32)), y ∈ pc.1.set :=
  View.cover_of_tiled [⟨row7, p7⟩, ⟨row6, p6⟩, ⟨row5, p5⟩, ⟨row4, p4⟩, ⟨row3, p3⟩, ⟨row2, p2⟩, ⟨row1, p1⟩, ⟨row0, p0⟩]
    S1x512.size (by rfl) y

/-! ## The body's triple -/

set_option maxHeartbeats 4000000 in
/-- The body on whole staging buffers, the three inputs at contents `x`, `a`, `b` and the result buffer at anything,
    runs to the continuation with the inputs as they were and the result buffer at `stored x a b`. -/
theorem sound_kernel (c : Dev nD) (E : Set ℕ) (i : grid0.Coords)
    (arg2 : Memref sig .tc .vmem S512x512 .f32) (harg2 : arg2.IsWhole)
    (arg3 : Memref sig .tc .vmem S8x512x512 .f32) (harg3 : arg3.IsWhole)
    (arg4 : Memref sig .tc .vmem S8x512 .f32) (harg4 : arg4.IsWhole)
    (arg5 : Memref sig .tc .vmem S8x512 .f32) (harg5 : arg5.IsWhole)
    (x : Vec F S512x512 .f32) (a : Vec F S8x512x512 .f32) (b : Vec F S8x512 .f32) (K : PUnit → sProp 𝕄) :
    iprop(owns (c : Thread nD τ) arg2 fullShare x ∗ owns (c : Thread nD τ) arg3 fullShare a
        ∗ owns (c : Thread nD τ) arg4 fullShare b ∗ (∃ d, owns (c : Thread nD τ) arg5 fullShare d)
        ∗ (iprop(owns (c : Thread nD τ) arg2 fullShare x ∗ owns (c : Thread nD τ) arg3 fullShare a
            ∗ owns (c : Thread nD τ) arg4 fullShare b ∗ owns (c : Thread nD τ) arg5 fullShare (stored x a b)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (rows_cover _ _ _ _ _ _ _ _)

end Cert.KernelIdeal.Body

end
-- ==== Proof.DataIdeal.lean ====
/-
  The pipeline's proof data around the kernel body.

  The grid has 13 × 8 points `(ki, bi)`. The feature window's blocks (512 rows) tile its array. The windows of the
  matrices `A` (100 × 512 × 512, blocks of 8 matrices), of the bias `b` (100 × 512, blocks of 8 rows) and of the
  result (100 × 4096, blocks of 8 × 512) do NOT tile the 100 classes: the thirteenth block holds classes 96 … 99 and
  four more rows past the array's end, about which nothing is known. After the body, the `A` and `b` buffers hold
  their blocks on the rows inside the array (filled out with zero words here, which nothing reads), and the result
  buffer holds `out c t`, a parameter: the frame of the word-level program does not name it, the value proof does.
  Whether or not a point fetches `A` and `b` (they are fetched only when `bi = 0`), the body finds their buffers at
  the block of the point's class tile on the rows inside the array.
-/
import proofs.«131704_j6150393168265_2_alg».proof.Proof.BodyIdeal

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of eight matrices at point `t` on the rows inside the array, zero words past the array's end. -/
def blkA (c : Dev nD) (t : Fin cfg0.N) : S8x512x512.Idx → Elt F .f32 :=
  win0_1.fill (grid0.coords t) (fun _ => Scalar.ofBits .f32 0#32) (iblk m c 1 t)
/-- The block of eight bias rows likewise. -/
def blkB (c : Dev nD) (t : Fin cfg0.N) : S8x512.Idx → Elt F .f32 :=
  win0_2.fill (grid0.coords t) (fun _ => Scalar.ofBits .f32 0#32) (iblk m c 2 t)

/-- The proof data: the arrays as the region finds them; after the body the feature buffer at its block, the
    `A` and `b` buffers at `blkA`, `blkB`, the result buffer at `out c t`. -/
def dats (out : Dev nD → Fin cfg0.N → S8x512.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => blkA m c t
    | ⟨2, _⟩ => blkB m c t
    | ⟨3, _⟩ => out c t
  Φ _ := Pipeline.ΦA spec0 c
  q _ := fullShare
  owed _ := 0

variable (out : Dev nD → Fin cfg0.N → S8x512.Idx → Elt F .f32)

theorem A_eq (c : Dev nD) (w : Fin cfg0.W) : (dats m out 0 c).A w = V m c (Pipeline.arrRef spec0 w) := by
  dsimp only [dats]

theorem after0_0 (c : Dev nD) (t : Fin cfg0.N) : (dats m out 0 c).after 0 t = iblk m c 0 t := by dsimp only [dats]
theorem after0_1 (c : Dev nD) (t : Fin cfg0.N) : (dats m out 0 c).after 1 t = blkA m c t := by dsimp only [dats]
theorem after0_2 (c : Dev nD) (t : Fin cfg0.N) : (dats m out 0 c).after 2 t = blkB m c t := by dsimp only [dats]
theorem after0_3 (c : Dev nD) (t : Fin cfg0.N) : (dats m out 0 c).after 3 t = out c t := by dsimp only [dats]

/-- Two points with one class tile cut the `A` block alike: the cut is a function of the block index. -/
theorem clip1_congr (t t' : Fin cfg0.N) (h : (cfg0.win 1).index t = (cfg0.win 1).index t') :
    (cfg0.win 1).clip (cfg0.grid.coords t) = (cfg0.win 1).clip (cfg0.grid.coords t') := by
  funext a
  have e : cc0_transform_1 (grid0.coords t) a = cc0_transform_1 (grid0.coords t') a := congrFun h a
  show Pipeline.Clip.of (cc0_transform_1 (grid0.coords t) a) _ _ = Pipeline.Clip.of (cc0_transform_1 (grid0.coords t') a) _ _
  rw [e]
theorem clip2_congr (t t' : Fin cfg0.N) (h : (cfg0.win 2).index t = (cfg0.win 2).index t') :
    (cfg0.win 2).clip (cfg0.grid.coords t) = (cfg0.win 2).clip (cfg0.grid.coords t') := by
  funext a
  have e : cc0_transform_2 (grid0.coords t) a = cc0_transform_2 (grid0.coords t') a := congrFun h a
  show Pipeline.Clip.of (cc0_transform_2 (grid0.coords t) a) _ _ = Pipeline.Clip.of (cc0_transform_2 (grid0.coords t') a) _ _
  rw [e]

/-- The feature buffer holds its block at every point. -/
theorem before0_0 (c : Dev nD) (t : Fin cfg0.N) (d) : (dats m out 0 c).before 0 t d = iblk m c 0 t :=
  before0_0_of m (dats m out 0 c) (A_eq m out c 0) (after0_0 m out c) t d

/-- The `A` buffer holds, at every point, its block on the rows inside the array and `d` (anything) past them. -/
theorem before0_1 (c : Dev nD) (t : Fin cfg0.N) (d) :
    (dats m out 0 c).before 1 t d = win0_1.fill (grid0.coords t) d (iblk m c 1 t) :=
  ((dats m out 0 c).before_in_eq_fetched 1 rfl (fun _ => rfl) (clip1_congr) (fun t => by
      rw [after0_1]; unfold blkA
      refine (win0_1.cut_fill _ _ _).trans ?_
      unfold Dat.blockOf iblk; rw [A_eq]) t d).trans
    (by unfold Dat.fetched Dat.blockOf iblk; rw [A_eq])

/-- The `b` buffer likewise. -/
theorem before0_2 (c : Dev nD) (t : Fin cfg0.N) (d) :
    (dats m out 0 c).before 2 t d = win0_2.fill (grid0.coords t) d (iblk m c 2 t) :=
  ((dats m out 0 c).before_in_eq_fetched 2 rfl (fun _ => rfl) (clip2_congr) (fun t => by
      rw [after0_2]; unfold blkB
      refine (win0_2.cut_fill _ _ _).trans ?_
      unfold Dat.blockOf iblk; rw [A_eq]) t d).trans
    (by unfold Dat.fetched Dat.blockOf iblk; rw [A_eq])

end Cert.KernelIdeal.Data

end
-- ==== Proof.ObligIdeal.lean ====
/-
  The body obligation at every grid point, in two forms, for any float instance.

  At point `t` the body is handed the feature buffer at its block, the `A` and `b` buffers at their blocks on the rows
  inside the array and ANYTHING (`d₁`, `d₂`) on the rows past the array's end, and the result buffer at anything. It
  leaves the inputs as found and the result buffer at `stored` of the three.
  * Forgetting the result window (`obligation_forget`): nothing is said of what the result buffer holds. This is all a
    frame needs.
  * Naming it (`obligation_named`): the obligation states the result buffer only on the rows inside the array; it
    holds as soon as those rows of `stored` do not depend on `d₁`, `d₂` (`hout`): row `j` of the result is computed
    from matrix `j` and bias row `j` alone, and the result block is cut at the same class as the `A` and `b` blocks.
-/
import proofs.«131704_j6150393168265_2_alg».proof.Proof.DataIdeal

set_option maxRecDepth 16384

noncomputable section

namespace Cert.KernelIdeal.Oblig

open Cert.KernelIdeal Cert.KernelIdeal.Gen Cert.KernelIdeal.Body Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → S8x512.Idx → Elt F .f32)

/-- The result window is the one a frame forgets. -/
def forgets : Fin 4 → Bool := fun w => w.val == 3

/-! ## Forgetting the result window -/

def preForget (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ X, owns (c : Thread nD τ) (st0_3 t) fullShare X))

def postForget (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ (∃ d, owns (c : Thread nD τ) (st0_1 t) fullShare (win0_1.fill (grid0.coords t) d (win0_1.cut (grid0.coords t) ((dats m out 0 c).after 1 t))))
    ∗ (∃ d, owns (c : Thread nD τ) (st0_2 t) fullShare (win0_2.fill (grid0.coords t) d (win0_2.cut (grid0.coords t) ((dats m out 0 c).after 2 t))))
    ∗ (∃ X, owns (c : Thread nD τ) (st0_3 t) fullShare X))

theorem sound_forget (c : Dev nD) (t : Fin cfg0.N) :
    preForget m out c t ⊢ wp frame (wpE (defs₀ (F := F)) Variants.none c none) Set.univ (bodyAt0 t) (fun _ => postForget m out c t) := by
  unfold preForget postForget bodyAt0
  simp only [before0_0, before0_1, before0_2]
  rw [show (dats m out 0 c).Φ t.succ = (dats m out 0 c).Φ t.castSucc from rfl,
    show (dats m out 0 c).owesAt () t.succ = (dats m out 0 c).owesAt () t.castSucc from rfl,
    after0_0, after0_1, after0_2]
  have hA : win0_1.cut (grid0.coords t) (blkA m c t) = iblk m c 1 t := win0_1.cut_fill _ _ _
  have hB : win0_2.cut (grid0.coords t) (blkB m c t) = iblk m c 2 t := win0_2.cut_fill _ _ _
  rw [hA, hB]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem obligation_forget (c : Dev nD) :
    BodyObligationLoose (dats (F := F) m out 0 c) (defs₀ (F := F)) Variants.none () Set.univ forgets := fun t => by
  rw [bigSep_W0, bigSep_W0]
  exact sound_forget m out c t

/-! ## Naming the result window -/

def preNamed (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d)))

def postNamed (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ (∃ d, owns (c : Thread nD τ) (st0_1 t) fullShare (win0_1.fill (grid0.coords t) d (win0_1.cut (grid0.coords t) ((dats m out 0 c).after 1 t))))
    ∗ (∃ d, owns (c : Thread nD τ) (st0_2 t) fullShare (win0_2.fill (grid0.coords t) d (win0_2.cut (grid0.coords t) ((dats m out 0 c).after 2 t))))
    ∗ (∃ d, owns (c : Thread nD τ) (st0_3 t) fullShare (win0_3.fill (grid0.coords t) d (win0_3.cut (grid0.coords t) ((dats m out 0 c).after 3 t)))))

theorem sound_named
    (hout : ∀ c t d1 d2, win0_3.cut (grid0.coords t)
        (stored (iblk m c 0 t) (win0_1.fill (grid0.coords t) d1 (iblk m c 1 t)) (win0_2.fill (grid0.coords t) d2 (iblk m c 2 t)))
      = win0_3.cut (grid0.coords t) (out c t))
    (c : Dev nD) (t : Fin cfg0.N) :
    preNamed m out c t ⊢ wp frame (wpE (defs₀ (F := F)) Variants.none c none) Set.univ (bodyAt0 t) (fun _ => postNamed m out c t) := by
  unfold preNamed postNamed bodyAt0
  simp only [before0_0, before0_1, before0_2]
  rw [show (dats m out 0 c).Φ t.succ = (dats m out 0 c).Φ t.castSucc from rfl,
    show (dats m out 0 c).owesAt () t.succ = (dats m out 0 c).owesAt () t.castSucc from rfl,
    after0_0, after0_1, after0_2, after0_3]
  have hA : win0_1.cut (grid0.coords t) (blkA m c t) = iblk m c 1 t := win0_1.cut_fill _ _ _
  have hB : win0_2.cut (grid0.coords t) (blkB m c t) = iblk m c 2 t := win0_2.cut_fill _ _ _
  rw [hA, hB]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (stored (iblk m c 0 t) (win0_1.fill (grid0.coords t) d1 (iblk m c 1 t)) (win0_2.fill (grid0.coords t) d2 (iblk m c 2 t)))
  rw [win0_3.fill_congr_cut (grid0.coords t) (hout c t d1 d2)]
  iexact H3

theorem obligation_named
    (hout : ∀ c t d1 d2, win0_3.cut (grid0.coords t)
        (stored (iblk m c 0 t) (win0_1.fill (grid0.coords t) d1 (iblk m c 1 t)) (win0_2.fill (grid0.coords t) d2 (iblk m c 2 t)))
      = win0_3.cut (grid0.coords t) (out c t))
    (c : Dev nD) :
    BodyObligationLoose (dats (F := F) m out 0 c) (defs₀ (F := F)) Variants.none () Set.univ := fun t => by
  rw [bigSep_W0, bigSep_W0]
  exact sound_named m out hout c t

end Cert.KernelIdeal.Oblig

end
-- ==== Proof.RbfSpec.lean ====
/-
  The specification: the distance of a feature row to a class.

  For features `X` (`nB × 512`), matrices `A` (`nK × 512 × 512`) and biases `B` (`nK × 512`), over the extended reals,
  `dist X A B n k = sqrt (Σ_e (Σ_d X[n, d] · A[k, e, d] + B[k, e])²)`:
  the Euclidean norm of `A_k x_n + b_k`. Both programs compute this number at every `(n, k)`; the sizes `nB`, `nK` are
  parameters because the kernel computes it block by block (512 rows against 8 classes) and the reference at once.
-/
import Idealize.ShloMosaic.PureOps.Ideal
import Idealize.ShloMosaic.Lib.ValueIdx

noncomputable section

namespace Cert.RbfSpec

open Idealize.ShloMosaic Idealize.ShloMosaic.ValueIdx

/-- `A_k x_n + b_k` at coordinate `e`. -/
def affine {nB nK : Nat} (X : (⟨2, ![nB, 512]⟩ : Shape).Idx → EReal) (A : (⟨3, ![nK, 512, 512]⟩ : Shape).Idx → EReal)
    (B : (⟨2, ![nK, 512]⟩ : Shape).Idx → EReal) (n : Fin nB) (k : Fin nK) (e : Fin 512) : EReal :=
  (∑ d : Fin 512, X (ix2 n d) * A (ix3 k e d)) + B (ix2 k e)

/-- The norm of `A_k x_n + b_k`. -/
def dist {nB nK : Nat} (X : (⟨2, ![nB, 512]⟩ : Shape).Idx → EReal) (A : (⟨3, ![nK, 512, 512]⟩ : Shape).Idx → EReal)
    (B : (⟨2, ![nK, 512]⟩ : Shape).Idx → EReal) (n : Fin nB) (k : Fin nK) : EReal :=
  Ideal.sqrt (∑ e : Fin 512, affine X A B n k e * affine X A B n k e)

/-- The distance reads only row `n` of the features, matrix `k` and bias row `k`. -/
theorem dist_congr {nB nK nB' nK' : Nat}
    (X : (⟨2, ![nB, 512]⟩ : Shape).Idx → EReal) (A : (⟨3, ![nK, 512, 512]⟩ : Shape).Idx → EReal) (B : (⟨2, ![nK, 512]⟩ : Shape).Idx → EReal)
    (X' : (⟨2, ![nB', 512]⟩ : Shape).Idx → EReal) (A' : (⟨3, ![nK', 512, 512]⟩ : Shape).Idx → EReal) (B' : (⟨2, ![nK', 512]⟩ : Shape).Idx → EReal)
    (n : Fin nB) (k : Fin nK) (n' : Fin nB') (k' : Fin nK')
    (hX : ∀ d, X (ix2 n d) = X' (ix2 n' d)) (hA : ∀ e d, A (ix3 k e d) = A' (ix3 k' e d)) (hB : ∀ e, B (ix2 k e) = B' (ix2 k' e)) :
    dist X A B n k = dist X' A' B' n' k' := by
  unfold dist affine
  refine congrArg Ideal.sqrt (Finset.sum_congr rfl fun e _ => ?_)
  have h : (∑ d : Fin 512, X (ix2 n d) * A (ix3 k e d)) = ∑ d : Fin 512, X' (ix2 n' d) * A' (ix3 k' e d) :=
    Finset.sum_congr rfl fun d _ => by rw [hX d, hA e d]
  rw [h, hB e]

end Cert.RbfSpec

end
-- ==== Proof.RowIdeal.lean ====
/-
  One stored row of the kernel body, read at an index, over the extended reals.

  Each of the eight rows the body stores is the same expression of the product `p = x · a'ᵀ` (512 × 4096) and one
  bias row `v` (1 × 512): with `q[r, e] = p[r, off + e] + v[0, e]` (the 512 columns of `p` from `off`, plus the bias row
  broadcast along the rows), the stored row is `sqrt (Σ_e q[r, e]²)`, reshaped to 1 × 512. At the extended reals the
  lane reduction is the plain sum, the product into a zero accumulator is the plain sum over the contracted axis,
  and the changes of float format are the identity; so row `j` of the result buffer at column `r` is
  `dist x a b r j` of the three staged blocks.
-/
import proofs.«131704_j6150393168265_2_alg».proof.Proof.BodyIdeal
import proofs.«131704_j6150393168265_2_alg».proof.Proof.RbfSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowIdeal

open Cert.KernelIdeal Cert.KernelIdeal.Gen Cert.KernelIdeal.Body Cert.RbfSpec
open Idealize.ShloMosaic Idealize.ShloMosaic.TcCoe Idealize.ShloMosaic.ValueIdx Idealize.SL.Sem

/-- The columns of the product from `off`, plus the bias row along the rows. -/
def biased {F : FTy → Type} [FloatOps F] (p : FVec F S512x4096 .f32) (off : Nat) (h : S512x4096.Slices ![0, off] S512x512) (v : Vec F S1x512 .f32) :
    FVec F S512x512 .f32 :=
  addf (extractStridedSlice S512x512 ![0, off] p h)
    (broadcastTo S512x512 (shapeCast S1x512 (shapeCast S512 v shapeCasts_S1x512_S512) shapeCasts_S512_S1x512) broadcasts_S1x512_S512x512)

/-- The root of each row's sum of squares, as a 1 × 512 row. -/
def rootRow {F : FTy → Type} [FloatOps F] (q : FVec F S512x512 .f32) : FVec F S1x512 .f32 :=
  shapeCast S1x512 (sqrt (multiReduction .add [1] S512 (mulf q q) 0x00000000#32 reduces_S512x512_S512 (.inl rfl) rfl)) shapeCasts_S512_S1x512

/-! The eight stored payloads are this one expression at the eight column offsets. -/
theorem pay_row0 {F : FTy → Type} [FloatOps F] (v0 : Vec F S512x512 .f32) (v2 : Vec F S8x512x512 .f32) (v : Vec F S1x512 .f32) :
    k0_pay5 v0 v2 v = rootRow (biased (k0_pay4 v0 v2) 0 slices_S512x4096_o0_0_S512x512 v) := rfl
theorem pay_row1 {F : FTy → Type} [FloatOps F] (v0 : Vec F S512x512 .f32) (v2 : Vec F S8x512x512 .f32) (v : Vec F S1x512 .f32) :
    k0_pay6 v0 v2 v = rootRow (biased (k0_pay4 v0 v2) 512 slices_S512x4096_o0_512_S512x512 v) := rfl
theorem pay_row2 {F : FTy → Type} [FloatOps F] (v0 : Vec F S512x512 .f32) (v2 : Vec F S8x512x512 .f32) (v : Vec F S1x512 .f32) :
    k0_pay8 (k0_pay7 v0 v2 v) = rootRow (biased (k0_pay4 v0 v2) 1024 slices_S512x4096_o0_1024_S512x512 v) := rfl
theorem pay_row3 {F : FTy → Type} [FloatOps F] (p : FVec F S512x4096 .f32) (v : Vec F S1x512 .f32) :
    k0_pay9 p v = rootRow (biased p 1536 slices_S512x4096_o0_1536_S512x512 v) := rfl
theorem pay_row4 {F : FTy → Type} [FloatOps F] (p : FVec F S512x4096 .f32) (v : Vec F S1x512 .f32) :
    k0_pay10 p v = rootRow (biased p 2048 slices_S512x4096_o0_2048_S512x512 v) := rfl
theorem pay_row5 {F : FTy → Type} [FloatOps F] (p : FVec F S512x4096 .f32) (v : Vec F S1x512 .f32) :
    k0_pay1 (k0_pay11 p v) = rootRow (biased p 2560 slices_S512x4096_o0_2560_S512x512 v) := rfl
theorem pay_row6 {F : FTy → Type} [FloatOps F] (p : FVec F S512x4096 .f32) (v : Vec F S1x512 .f32) :
    k0_pay2 p v = rootRow (biased p 3072 slices_S512x4096_o0_3072_S512x512 v) := rfl
theorem pay_row7 {F : FTy → Type} [FloatOps F] (p : FVec F S512x4096 .f32) (v : Vec F S1x512 .f32) :
    k0_pay3 p v = rootRow (biased p 3584 slices_S512x4096_o0_3584_S512x512 v) := rfl

/-- The biased columns at `(r, e)`. -/
theorem biased_apply (p : FVec Ideal S512x4096 .f32) (off : Nat) (h : S512x4096.Slices ![0, off] S512x512) (v : Vec Ideal S1x512 .f32)
    (r e : Fin 512) (c : Fin 4096) (hc : c.val = off + e.val) :
    biased p off h v (ix2 r e) = p (ix2 r c) + v (ix2 (0 : Fin 1) e) := by
  unfold biased
  refine (addf_apply _ _ _).trans ?_
  rw [slice2_axis1_apply off p h r e c hc, broadcastTo_1b_ab_apply, shapeCast_a_1a_apply, shapeCast_1a_a_apply]

/-- The root row at `(u, r)`: the root of row `r`'s sum of squares. -/
theorem rootRow_apply (q : FVec Ideal S512x512 .f32) (u : Fin 1) (r : Fin 512) :
    rootRow q (ix2 u r) = Ideal.sqrt (∑ e : Fin 512, q (ix2 r e) * q (ix2 r e)) := by
  unfold rootRow
  rw [shapeCast_a_1a_apply]
  show Ideal.sqrt (multiReduction .add [1] S512 (mulf q q) 0x00000000#32 reduces_S512x512_S512 (.inl rfl) rfl (ix1 r)) = _
  refine congrArg Ideal.sqrt ?_
  refine (Ideal.multiReduction_add_single (mulf q q) 0x00000000#32 reduces_S512x512_S512 (.inl rfl) rfl (ix1 r)).trans ?_
  refine Finset.sum_congr rfl fun e _ => ?_
  refine (mulf_apply _ _ _).trans ?_
  have he : reduces_S512x512_S512.lift (ix1 r) e = ix2 r e :=
    funext fun a => Fin.ext (by match a with | ⟨0, _⟩ => rfl | ⟨1, _⟩ => rfl)
  rw [he]; rfl

end Cert.KernelIdeal.RowIdeal

end
-- ==== Proof.BlockIdeal.lean ====
/-
  The result buffer after one run of the body, over the extended reals: `stored x a b` at `(j, r)` is
  `dist x a b r j`, the distance of feature row `r` of the staged block to class `j` of the staged tile.

  The product `p = x · a'ᵀ` at `(r, c)` is `Σ_d x[r, d] · a'[c, d]`, and row `c = 512 j + e` of the stacked matrices `a'`
  is row `e` of matrix `j`. Row `j` of the buffer is stored from the columns `512 j … 512 j + 511` of `p` and bias row
  `j`; the eight rows tile the buffer, so the buffer is one function of its index.
-/
import proofs.«131704_j6150393168265_2_alg».proof.Proof.RowIdeal

set_option maxRecDepth 16384

noncomputable section

namespace Cert.KernelIdeal.BlockIdeal

open Cert.KernelIdeal Cert.KernelIdeal.Gen Cert.KernelIdeal.Body Cert.KernelIdeal.RowIdeal Cert.RbfSpec
open Idealize.ShloMosaic Idealize.ShloMosaic.TcCoe Idealize.ShloMosaic.ValueIdx Idealize.SL.Sem

theorem lhs0 (i : S512x4096.Idx) (q : dot_S512x512_S4096x512_S512x4096_1_1_0_0_n_n.contr.Idx) : (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem lhs1 (i : S512x4096.Idx) (q : dot_S512x512_S4096x512_S512x4096_1_1_0_0_n_n.contr.Idx) : (dot_S512x512_S4096x512_S512x4096_1_1_0_0_n_n.lhsIdx i q 1).val = (q ⟨0, by decide⟩).val :=
  dot_S512x512_S4096x512_S512x4096_1_1_0_0_n_n.lhsIdx_val_of_single rfl i q
theorem rhs0 (i : S512x4096.Idx) (q : dot_S512x512_S4096x512_S512x4096_1_1_0_0_n_n.contr.Idx) : (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
theorem rhs1 (i : S512x4096.Idx) (q : dot_S512x512_S4096x512_S512x4096_1_1_0_0_n_n.contr.Idx) : (dot_S512x512_S4096x512_S512x4096_1_1_0_0_n_n.rhsIdx i q 1).val = (q ⟨0, by decide⟩).val :=
  dot_S512x512_S4096x512_S512x4096_1_1_0_0_n_n.rhsIdx_val_of_single rfl i q

/-- The product at `(r, c)`, `c = 512 j + e`: the sum over `d` of `x[r, d] · a[j, e, d]`. -/
theorem product_apply (v0 : Vec Ideal S512x512 .f32) (v2 : Vec Ideal S8x512x512 .f32) (r : Fin 512) (c : Fin 4096)
    (j : Fin 8) (e : Fin 512) (hc : c.val = 512 * j.val + e.val) :
    k0_pay4 v0 v2 (ix2 r c) = ∑ d : Fin 512, v0 (ix2 r d) * v2 (ix3 j e d) := by
  unfold k0_pay4
  refine (Ideal.matmul_constant_zero_apply dot_S512x512_S4096x512_S512x4096_1_1_0_0_n_n none _ _ (ix2 r c)).trans ?_
  rw [← Equiv.sum_comp (ValueIdx.contrEquiv1 dot_S512x512_S4096x512_S512x4096_1_1_0_0_n_n 512 rfl rfl).symm]
  refine Finset.sum_congr rfl fun k _ => ?_
  have hk := ValueIdx.contrEquiv1_symm_val dot_S512x512_S4096x512_S512x4096_1_1_0_0_n_n 512 rfl rfl k
  have el : dot_S512x512_S4096x512_S512x4096_1_1_0_0_n_n.lhsIdx (ix2 r c) ((ValueIdx.contrEquiv1 dot_S512x512_S4096x512_S512x4096_1_1_0_0_n_n 512 rfl rfl).symm k) = ix2 r k := funext fun a => Fin.ext (by
    match a with
    | ⟨0, _⟩ => exact lhs0 _ _
    | ⟨1, _⟩ => exact (lhs1 _ _).trans hk)
  have er : dot_S512x512_S4096x512_S512x4096_1_1_0_0_n_n.rhsIdx (ix2 r c) ((ValueIdx.contrEquiv1 dot_S512x512_S4096x512_S512x4096_1_1_0_0_n_n 512 rfl rfl).symm k) = ix2 c k := funext fun a => Fin.ext (by
    match a with
    | ⟨0, _⟩ => exact rhs0 _ _
    | ⟨1, _⟩ => exact (rhs1 _ _).trans hk)
  rw [el, er]
  refine congrArg (v0 (ix2 r k) * ·) ?_
  show shapeCast S4096x512 v2 shapeCasts_S8x512x512_S4096x512 (ix2 c k) = v2 (ix3 j e k)
  refine shapeCast_apply v2 shapeCasts_S8x512x512_S4096x512 (ix2 c k) (ix3 j e k) ?_
  rw [Shape.rowMajor_val_three, Shape.rowMajor_val_two]
  show (j.val * 512 + e.val) * 512 + k.val = c.val * 512 + k.val
  omega

/-- Row `j` of an 8 × 512 buffer holds its 1 × 512 piece at `(j, r)`. -/
theorem row_emb (j : Nat) (inb : ∀ a, (![j, 0] : Fin 2 → Nat) a + S1x512.size a ≤ S8x512.size a) (hj : j < 8)
    (x : (Rect.unit (s := S8x512) ![j, 0] S1x512.size inb).shape.Idx) :
    (Rect.unit (s := S8x512) ![j, 0] S1x512.size inb).emb x = ix2 (⟨j, hj⟩ : Fin 8) (⟨(x 1).val, (x 1).isLt⟩ : Fin 512) := by
  funext a
  refine Fin.ext ?_
  rw [Rect.emb_apply]
  match a with
  | ⟨0, _⟩ =>
    have h0 : (x 0).val < 1 := (x 0).isLt
    show j + 1 * (x 0).val = j
    omega
  | ⟨1, _⟩ =>
    show 0 + 1 * (x 1).val = (x 1).val
    omega

/-- One stored row at an index: with the product cut at column `512 j` and bias row `j` of the staged block. -/
theorem row_apply (x : Vec Ideal S512x512 .f32) (a : Vec Ideal S8x512x512 .f32) (b : Vec Ideal S8x512 .f32)
    (j : Fin 8) (h : S512x4096.Slices ![0, 512 * j.val] S512x512)
    (inb : ∀ a, (![j.val, 0] : Fin 2 → Nat) a + S1x512.size a ≤ S8x512.size a)
    (y : (Rect.unit (s := S8x512) ![j.val, 0] S1x512.size inb).shape.Idx) :
    rootRow (biased (k0_pay4 (View.ld x rX) (View.ld a rA)) (512 * j.val) h (View.ld b (Rect.unit (s := S8x512) ![j.val, 0] S1x512.size inb))) y
      = RbfSpec.dist x a b (⟨(y 1).val, (y 1).isLt⟩ : Fin 512) j := by
  have hz2 : (![0, 0] : Fin 2 → Nat) = fun _ => 0 := funext fun a => by fin_cases a <;> rfl
  have hz3 : (![0, 0, 0] : Fin 3 → Nat) = fun _ => 0 := funext fun a => by fin_cases a <;> rfl
  have hx : View.ld x rX = x := View.ld_unit_zero (S := S512x512) hz2 _ x
  have ha : View.ld a rA = a := View.ld_unit_zero (S := S8x512x512) hz3 _ a
  rw [hx, ha]
  obtain ⟨u, r, rfl⟩ : ∃ (u : Fin 1) (r : Fin 512), y = ix2 u r := ⟨y 0, y 1, eq_ix2 y⟩
  rw [rootRow_apply]
  unfold RbfSpec.dist RbfSpec.affine
  refine congrArg Ideal.sqrt (Finset.sum_congr rfl fun e _ => ?_)
  have hb : View.ld b (Rect.unit (s := S8x512) ![j.val, 0] S1x512.size inb) (ix2 (0 : Fin 1) e) = b (ix2 j e) := by
    show b ((Rect.unit (s := S8x512) ![j.val, 0] S1x512.size inb).emb (ix2 (0 : Fin 1) e)) = b (ix2 j e)
    rw [row_emb j.val inb j.isLt]; rfl
  have hq : biased (k0_pay4 x a) (512 * j.val) h (View.ld b (Rect.unit (s := S8x512) ![j.val, 0] S1x512.size inb)) (ix2 r e)
      = (∑ d : Fin 512, x (ix2 r d) * a (ix3 j e d)) + b (ix2 j e) := by
    rw [biased_apply _ _ _ _ r e ⟨512 * j.val + e.val, by have := j.isLt; have := e.isLt; omega⟩ rfl,
      product_apply x a r _ j e rfl, hb]
  rw [hq]; rfl

end Cert.KernelIdeal.BlockIdeal

end
-- ==== Proof.StoredIdeal.lean ====
/-
  The result buffer after the body is ONE function of its index, over the extended reals:
  `stored x a b (j, r) = dist x a b r j` for all eight rows `j` and 512 columns `r`.

  Each stored piece is row `j` of that function (the previous module); the eight rows cover the buffer.
-/
import proofs.«131704_j6150393168265_2_alg».proof.Proof.BlockIdeal

set_option maxRecDepth 16384

noncomputable section

namespace Cert.KernelIdeal.StoredIdeal

open Cert.KernelIdeal Cert.KernelIdeal.Gen Cert.KernelIdeal.Body Cert.KernelIdeal.RowIdeal Cert.KernelIdeal.BlockIdeal
open Idealize.ShloMosaic Idealize.ShloMosaic.TcCoe Idealize.ShloMosaic.ValueIdx Idealize.SL.Sem

/-- The distances of the 512 staged feature rows to the 8 staged classes, laid out class-major as the buffer is. -/
def blockDist (x : Vec Ideal S512x512 .f32) (a : Vec Ideal S8x512x512 .f32) (b : Vec Ideal S8x512 .f32) : Vec Ideal S8x512 .f32 :=
  fun y => RbfSpec.dist x a b (⟨(y 1).val, (y 1).isLt⟩ : Fin 512) (⟨(y 0).val, (y 0).isLt⟩ : Fin 8)

/-- The piece stored into row `j` is row `j` of `blockDist`. -/
theorem piece_row (x : Vec Ideal S512x512 .f32) (a : Vec Ideal S8x512x512 .f32) (b : Vec Ideal S8x512 .f32)
    (j : Fin 8) (h : S512x4096.Slices ![0, 512 * j.val] S512x512)
    (inb : ∀ a, (![j.val, 0] : Fin 2 → Nat) a + S1x512.size a ≤ S8x512.size a)
    (z : (Rect.unit (s := S8x512) ![j.val, 0] S1x512.size inb).shape.Idx) :
    rootRow (biased (k0_pay4 (View.ld x rX) (View.ld a rA)) (512 * j.val) h (View.ld b (Rect.unit (s := S8x512) ![j.val, 0] S1x512.size inb))) z
      = blockDist x a b ((Rect.unit (s := S8x512) ![j.val, 0] S1x512.size inb).emb z) := by
  refine (row_apply x a b j h inb z).trans ?_
  unfold blockDist
  rw [row_emb j.val inb j.isLt z]

theorem stored_eq (x : Vec Ideal S512x512 .f32) (a : Vec Ideal S8x512x512 .f32) (b : Vec Ideal S8x512 .f32) :
    stored x a b = blockDist x a b := by
  funext y
  unfold stored prod
  refine View.canon_apply_of_pieces (blockDist x a b) _ ?_ y (rows_cover _ _ _ _ _ _ _ _ y)
  intro p hp
  simp only [List.mem_cons, List.mem_nil_iff, or_false] at hp
  rcases hp with rfl | rfl | rfl | rfl | rfl | rfl | rfl | rfl
  · exact fun z => piece_row x a b (7 : Fin 8) slices_S512x4096_o0_3584_S512x512 inb_S8x512_S1x512_7_0 z
  · exact fun z => piece_row x a b (6 : Fin 8) slices_S512x4096_o0_3072_S512x512 inb_S8x512_S1x512_6_0 z
  · exact fun z => piece_row x a b (5 : Fin 8) slices_S512x4096_o0_2560_S512x512 inb_S8x512_S1x512_5_0 z
  · exact fun z => piece_row x a b (4 : Fin 8) slices_S512x4096_o0_2048_S512x512 inb_S8x512_S1x512_4_0 z
  · exact fun z => piece_row x a b (3 : Fin 8) slices_S512x4096_o0_1536_S512x512 inb_S8x512_S1x512_3_0 z
  · exact fun z => piece_row x a b (2 : Fin 8) slices_S512x4096_o0_1024_S512x512 inb_S8x512_S1x512_2_0 z
  · exact fun z => piece_row x a b (1 : Fin 8) slices_S512x4096_o0_512_S512x512 inb_S8x512_S1x512_1_0 z
  · exact fun z => piece_row x a b (0 : Fin 8) slices_S512x4096_o0_0_S512x512 inb_S8x512_S1x512_0_0 z

end Cert.KernelIdeal.StoredIdeal

end
-- ==== Proof.LibClippedFill.lean ====
/-
  Two facts about a staging buffer that a CLIPPED fetch filled (a window whose last block overhangs its array).

  A fetch at grid coordinates `i` moves only the leading part of the block, the part inside the array; the rest of
  the buffer holds contents `d` nothing names. `Window.fill i d g` is that buffer: `g` on the moved part, `d` elsewhere.
  * `fill_of_moved`: at a moved entry the buffer holds the fetched entry;
  * `fill_eq_of_moved`: so at a moved entry two fills with different unnamed contents agree.
  With these, a value computed from moved entries only is seen not to depend on the unnamed contents.
-/
import Idealize.ShloMosaic.Lib.Pipeline

namespace Cert.LibClippedFill

open Idealize.ShloMosaic Idealize.ShloMosaic.Pipeline

/-- Where a fetch moves an entry, the buffer holds the fetched entry. -/
theorem fill_of_moved {sig : RefSig} {G : Grid} (w : Window sig G) {α : Type} (i : G.Coords) (d : w.block.Idx → α)
    (g : (w.xblock i).Idx → α) (y : w.block.Idx) (h : w.moved i y = true) :
    w.fill i d g y = g (fun a => ⟨(y a).val, (w.moved_iff i y).mp h a⟩) := by
  unfold Window.fill; rw [dif_pos h]

/-- Where a fetch moves an entry, the buffer holds the fetched entry whatever it held before. -/
theorem fill_eq_of_moved {sig : RefSig} {G : Grid} (w : Window sig G) {α : Type} (i : G.Coords) (d d' : w.block.Idx → α)
    (g : (w.xblock i).Idx → α) (y : w.block.Idx) (h : w.moved i y = true) : w.fill i d g y = w.fill i d' g y := by
  rw [fill_of_moved w i d g y h, fill_of_moved w i d' g y h]

end Cert.LibClippedFill
-- ==== Proof.RunIdeal.lean ====
/-
  The run of the idealized kernel program with every array named.

  Point `t` of the grid is `(ki, bi) = (t / 8, t % 8)`: the feature block is rows `512 bi …`, the `A`, `b` and result
  blocks are classes `8 ki …`, and the result block is columns `512 bi …`. The three class windows are cut alike at
  the array's end: `min 8 (100 − 8 ki)` classes are inside. What the body leaves in the result buffer is
  `stored` of the three staged blocks, i.e. the distances of the staged feature rows to the staged classes; on the
  classes inside the array these do not depend on what the `A` and `b` buffers hold past the array's end, because
  class `j`'s distance reads matrix `j` and bias row `j` only. So the body obligation holds with the result named, and
  the program runs to the end with every array at what the library computes from these contents.
-/
import proofs.«131704_j6150393168265_2_alg».proof.Proof.ObligIdeal
import proofs.«131704_j6150393168265_2_alg».proof.Proof.StoredIdeal
import proofs.«131704_j6150393168265_2_alg».proof.Proof.LibClippedFill
import Idealize.ShloMosaic.Lib.Pipeline.Value

set_option maxRecDepth 16384

noncomputable section

namespace Cert.KernelIdeal.RunIdeal

open Cert.KernelIdeal Cert.KernelIdeal.Gen Cert.KernelIdeal.Body Cert.KernelIdeal.Data Cert.KernelIdeal.Oblig
open Cert.KernelIdeal.StoredIdeal Cert.LibClippedFill
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The schedule, decided once over the 104 points: block indices, and how many of each block's entries per axis
    are inside the array. -/
theorem sched : ∀ t : Fin cfg0.N,
    win0_0.index t 0 = t.val % 8 ∧ win0_0.index t 1 = 0
    ∧ win0_1.index t 0 = t.val / 8 ∧ win0_1.index t 1 = 0 ∧ win0_1.index t 2 = 0
    ∧ win0_2.index t 0 = t.val / 8 ∧ win0_2.index t 1 = 0
    ∧ win0_3.index t 0 = t.val / 8 ∧ win0_3.index t 1 = t.val % 8
    ∧ win0_1.xsize (grid0.coords t) 0 = win0_3.xsize (grid0.coords t) 0
    ∧ win0_1.xsize (grid0.coords t) 1 = 512 ∧ win0_1.xsize (grid0.coords t) 2 = 512
    ∧ win0_2.xsize (grid0.coords t) 0 = win0_3.xsize (grid0.coords t) 0 ∧ win0_2.xsize (grid0.coords t) 1 = 512
    ∧ win0_3.xsize (grid0.coords t) 1 = 512
    ∧ win0_3.xsize (grid0.coords t) 0 = min 8 (100 - 8 * (t.val / 8)) :=
  (by decide +kernel : ∀ t : Fin grid0.N, _)

/-- An entry of the `A` buffer whose class is inside the array is moved by the fetch. -/
theorem movedA (t : Fin cfg0.N) (j : Fin 8) (e d : Fin 512) (hj : j.val < win0_3.xsize (grid0.coords t) 0) :
    win0_1.moved (grid0.coords t) (ix3 j e d) = true := by
  obtain ⟨-, -, -, -, -, -, -, -, -, h10, h11, h12, -, -, -, -⟩ := sched t
  refine (win0_1.moved_iff (grid0.coords t) _).mpr fun a => ?_
  match a with
  | ⟨0, _⟩ => show j.val < win0_1.xsize (grid0.coords t) 0; rw [h10]; exact hj
  | ⟨1, _⟩ => show e.val < win0_1.xsize (grid0.coords t) 1; rw [h11]; exact e.isLt
  | ⟨2, _⟩ => show d.val < win0_1.xsize (grid0.coords t) 2; rw [h12]; exact d.isLt

/-- An entry of the `b` buffer whose class is inside the array is moved by the fetch. -/
theorem movedB (t : Fin cfg0.N) (j : Fin 8) (e : Fin 512) (hj : j.val < win0_3.xsize (grid0.coords t) 0) :
    win0_2.moved (grid0.coords t) (ix2 j e) = true := by
  obtain ⟨-, -, -, -, -, -, -, -, -, -, -, -, h20, h21, -, -⟩ := sched t
  refine (win0_2.moved_iff (grid0.coords t) _).mpr fun a => ?_
  match a with
  | ⟨0, _⟩ => show j.val < win0_2.xsize (grid0.coords t) 0; rw [h20]; exact hj
  | ⟨1, _⟩ => show e.val < win0_2.xsize (grid0.coords t) 1; rw [h21]; exact e.isLt

/-- What the body leaves in the result buffer at point `t`. -/
def outBlk (c : Dev nD) (t : Fin cfg0.N) : S8x512.Idx → Elt Ideal .f32 :=
  stored (iblk m c 0 t) (blkA m c t) (blkB m c t)

/-- On the classes inside the array the result does not depend on the unnamed tails of the `A` and `b` buffers. -/
theorem rows_inside (c : Dev nD) (t : Fin cfg0.N) (d1 : S8x512x512.Idx → Elt Ideal .f32) (d2 : S8x512.Idx → Elt Ideal .f32) :
    win0_3.cut (grid0.coords t)
        (stored (iblk m c 0 t) (win0_1.fill (grid0.coords t) d1 (iblk m c 1 t)) (win0_2.fill (grid0.coords t) d2 (iblk m c 2 t)))
      = win0_3.cut (grid0.coords t) (outBlk m c t) := by
  funext jx
  show stored _ _ _ (win0_3.xinj (grid0.coords t) jx) = outBlk m c t (win0_3.xinj (grid0.coords t) jx)
  unfold outBlk
  rw [stored_eq, stored_eq]
  unfold blockDist blkA blkB
  have hj : (jx 0).val < win0_3.xsize (grid0.coords t) 0 := (jx 0).isLt
  refine RbfSpec.dist_congr _ _ _ _ _ _ _ _ _ _ (fun d => rfl) (fun e d => ?_) (fun e => ?_)
  · exact fill_eq_of_moved win0_1 (grid0.coords t) _ _ _ _ (movedA t _ e d hj)
  · exact fill_eq_of_moved win0_2 (grid0.coords t) _ _ _ _ (movedB t _ e hj)

set_option backward.isDefEq.respectTransparency.types false in
/-- Every weakly fair execution terminates with every array of the pipeline at what the library computes from the
    proof data, and every other buffer at what the host operation after the region leaves. -/
theorem run_main : θ_run defs (onTc (τ := τ) (main (F := Ideal))) (s₀ m ρ)
    (Pipeline.FramePost cfgs (dats m (outBlk m)) 0 (Pipeline.afterTail₀ cfgs (dats m (outBlk m)) 0 (V0 m) [hostOps1])) :=
  Pipeline.θ_run_frame_around cfgs (dats m (outBlk m)) (0 : Fin 1) launch0 defs₀ Variants.none m ρ main
    (hbody := fun c => obligation_named m (outBlk m) (rows_inside m) c)
    (hshare := fun c => (dats m (outBlk m) 0 c).share_full fun _ => rfl) (howed := fun _ _ => rfl)
    (V₀ := V0 m) (opss := [hostOps1]) (hsub := sfx_sub) (hfresh := sfx_fresh) (hkeep := sfx_keeps)
    (hmain := hmain m Variants.none) (hA := A_eq m (outBlk m)) (hΦ := fun _ _ => rfl)

/-- The frame of the idealized kernel program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m (outBlk m)) (A_eq m (outBlk m)) (run_main m ρ)

end Cert.KernelIdeal.RunIdeal

end
-- ==== Proof.ArrayIdeal.lean ====
/-
  The kernel's result array after the run: every entry `(k, n)` (class `k < 100`, feature row `n < 4096`) is
  `dist X A B n k` of the three argument arrays.

  At point `t = (ki, bi)` the staged feature block is rows `512 bi + r` of `X`; the staged `A` and `b` blocks, on the
  classes inside the array, are classes `8 ki + j`; and what the point writes back lands at `(8 ki + j, 512 bi + r)`
  of the result array, for the `min 8 (100 − 8 ki)` classes inside it. So what each point writes back is the block of
  ONE function of the arguments. Every `(k, n)` lies in the block of the point `(k / 8, n / 512)`, so the blocks cover the
  array and the array ends holding that function.
-/
import proofs.«131704_j6150393168265_2_alg».proof.Proof.RunIdeal

set_option maxRecDepth 16384

noncomputable section

namespace Cert.KernelIdeal.ArrayIdeal

open Cert.KernelIdeal Cert.KernelIdeal.Gen Cert.KernelIdeal.Body Cert.KernelIdeal.Data Cert.KernelIdeal.Oblig
open Cert.KernelIdeal.StoredIdeal Cert.KernelIdeal.RunIdeal Cert.LibClippedFill
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The staged feature block: rows `512 bi + r` of the features. -/
theorem featBlock_apply (c : Dev nD) (t : Fin cfg0.N) (r d : Fin 512) (n : Fin 4096) (hn : n.val = (t.val % 8) * 512 + r.val) :
    iblk m c 0 t (ix2 r d) = m ((c : Thread nD τ).loc main_arg0) (ix2 n d) := by
  obtain ⟨e00, e01, -⟩ := sched t
  show V m c main_arg0 (((cfg0.win 0).blk t).view.emb (ix2 r d)) = _
  refine congrArg (m ((c : Thread nD τ).loc main_arg0)) (funext fun a => Fin.ext ?_)
  match a with
  | ⟨0, _⟩ => show win0_0.index t (0 : Fin 2) * 512 + 1 * r.val = n.val; omega
  | ⟨1, _⟩ => show win0_0.index t (1 : Fin 2) * 512 + 1 * d.val = d.val; omega

/-- The staged block of matrices, on a class inside the array: class `8 ki + j`. -/
theorem matBlock_apply (c : Dev nD) (t : Fin cfg0.N) (j : Fin 8) (e d : Fin 512) (k : Fin 100)
    (hk : k.val = (t.val / 8) * 8 + j.val) (hj : j.val < win0_3.xsize (grid0.coords t) 0) :
    blkA m c t (ix3 j e d) = m ((c : Thread nD τ).loc main_arg1) (ix3 k e d) := by
  obtain ⟨-, -, e10, e11, e12, -⟩ := sched t
  unfold blkA
  rw [fill_of_moved win0_1 _ _ _ _ (movedA t j e d hj)]
  show V m c main_arg1 (((cfg0.win 1).blk t).view.emb _) = _
  refine congrArg (m ((c : Thread nD τ).loc main_arg1)) (funext fun a => Fin.ext ?_)
  match a with
  | ⟨0, _⟩ => show win0_1.index t (0 : Fin 3) * 8 + 1 * j.val = k.val; omega
  | ⟨1, _⟩ => show win0_1.index t (1 : Fin 3) * 512 + 1 * e.val = e.val; omega
  | ⟨2, _⟩ => show win0_1.index t (2 : Fin 3) * 512 + 1 * d.val = d.val; omega

/-- The staged block of bias rows, on a class inside the array: class `8 ki + j`. -/
theorem biasBlock_apply (c : Dev nD) (t : Fin cfg0.N) (j : Fin 8) (e : Fin 512) (k : Fin 100)
    (hk : k.val = (t.val / 8) * 8 + j.val) (hj : j.val < win0_3.xsize (grid0.coords t) 0) :
    blkB m c t (ix2 j e) = m ((c : Thread nD τ).loc main_arg2) (ix2 k e) := by
  obtain ⟨-, -, -, -, -, e20, e21, -⟩ := sched t
  unfold blkB
  rw [fill_of_moved win0_2 _ _ _ _ (movedB t j e hj)]
  show V m c main_arg2 (((cfg0.win 2).blk t).view.emb _) = _
  refine congrArg (m ((c : Thread nD τ).loc main_arg2)) (funext fun a => Fin.ext ?_)
  match a with
  | ⟨0, _⟩ => show win0_2.index t (0 : Fin 2) * 8 + 1 * j.val = k.val; omega
  | ⟨1, _⟩ => show win0_2.index t (1 : Fin 2) * 512 + 1 * e.val = e.val; omega

/-- All distances, class-major: what the kernel's result array is shown to hold. -/
def distKN (c : Dev nD) : S100x4096.Idx → Elt Ideal .f32 := fun i =>
  RbfSpec.dist (nB := 4096) (nK := 100) (m ((c : Thread nD τ).loc main_arg0)) (m ((c : Thread nD τ).loc main_arg1))
    (m ((c : Thread nD τ).loc main_arg2)) (⟨(i 1).val, (i 1).isLt⟩ : Fin 4096) (⟨(i 0).val, (i 0).isLt⟩ : Fin 100)

/-- What point `t` writes back is block `t` of `distKN`. -/
theorem flushed_eq (c : Dev nD) (t : Fin cfg0.N) :
    (dats m (outBlk m) 0 c).flushed 3 t = ((cfg0.win 3).blk t).view.read (Elt Ideal) (distKN m c) := by
  show (cfg0.win 3).cut (grid0.coords t) ((dats m (outBlk m) 0 c).after 3 t) = _
  rw [after0_3]
  unfold outBlk
  rw [stored_eq]
  obtain ⟨-, -, -, -, -, -, -, e30, e31, -, -, -, -, -, x31, x30⟩ := sched t
  funext jx
  have hj : (jx 0).val < win0_3.xsize (grid0.coords t) 0 := (jx 0).isLt
  have hj8 : (jx 0).val < 8 := lt_of_lt_of_le hj (win0_3.xsize_le (grid0.coords t) 0)
  have hr : (jx 1).val < 512 := lt_of_lt_of_le (jx 1).isLt (win0_3.xsize_le (grid0.coords t) 1)
  have ht : t.val < 104 := lt_of_lt_of_eq t.isLt N_0
  have hk100 : (t.val / 8) * 8 + (jx 0).val < 100 := by rw [x30] at hj; omega
  have hn4096 : (t.val % 8) * 512 + (jx 1).val < 4096 := by omega
  have e0 : ((((cfg0.win 3).blk t).view.emb jx) 0).val = (t.val / 8) * 8 + (jx 0).val := by
    show win0_3.index t (0 : Fin 2) * 8 + 1 * (jx 0).val = _; omega
  have e1 : ((((cfg0.win 3).blk t).view.emb jx) 1).val = (t.val % 8) * 512 + (jx 1).val := by
    show win0_3.index t (1 : Fin 2) * 512 + 1 * (jx 1).val = _; omega
  show blockDist (iblk m c 0 t) (blkA m c t) (blkB m c t) (win0_3.xinj (grid0.coords t) jx)
    = distKN m c (((cfg0.win 3).blk t).view.emb jx)
  unfold blockDist distKN
  refine RbfSpec.dist_congr _ _ _ _ _ _ _ _ _ _ (fun d => ?_) (fun e d => ?_) (fun e => ?_)
  · exact featBlock_apply m c t _ d _ e1
  · exact matBlock_apply m c t _ e d _ e0 hj
  · exact biasBlock_apply m c t _ e _ e0 hj

/-- An index of the result array is in point `t`'s block iff each coordinate is in the block's range inside the
    array on its axis. -/
theorem mem_blk (t : Fin cfg0.N) (i : S100x4096.Idx) :
    i ∈ ((cfg0.win 3).blk t).view.set ↔ ∀ a : Fin 2, win0_3.index t a * S8x512.size a ≤ (i a).val
      ∧ (i a).val < win0_3.index t a * S8x512.size a + win0_3.xsize (grid0.coords t) a := by
  show i ∈ ((View.whole main_v0).slice (win0_3.rect t)).set ↔ _
  rw [View.set_slice_whole, Rect.mem_set_unit]
  exact Iff.rfl

/-- Every entry of the result array is in some point's block. -/
theorem cover (i : S100x4096.Idx) :
    ∃ t : Fin cfg0.N, (cfg0.win 3).flush t = true ∧ i ∈ ((cfg0.win 3).blk t).view.set := by
  have hi0 : (i 0).val < 100 := (i 0).isLt
  have hi1 : (i 1).val < 4096 := (i 1).isLt
  obtain ⟨t, ht⟩ : ∃ t : Fin cfg0.N, t.val = (i 0).val / 8 * 8 + (i 1).val / 512 :=
    ⟨⟨(i 0).val / 8 * 8 + (i 1).val / 512, by rw [show cfg0.N = 104 from N_0]; omega⟩, rfl⟩
  obtain ⟨-, -, -, -, -, -, -, e30, e31, -, -, -, -, -, x31, x30⟩ := sched t
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + win0_3.xsize (grid0.coords t) (0 : Fin 2)
    rw [e30, x30]; omega
  | ⟨1, _⟩ =>
    show win0_3.index t (1 : Fin 2) * 512 ≤ (i 1).val ∧ (i 1).val < win0_3.index t (1 : Fin 2) * 512 + win0_3.xsize (grid0.coords t) (1 : Fin 2)
    rw [e31, x31]; omega

/-- The kernel's result array after the run holds all the distances. -/
theorem final (c : Dev nD) : (dats m (outBlk m) 0 c).arrAt 3 cfg0.N = distKN m c :=
  (dats m (outBlk m) 0 c).arrAt_eq_of_cover 3 (distKN m c) (fun t _ => flushed_eq m c t) (cover)

end Cert.KernelIdeal.ArrayIdeal

end
-- ==== Proof.TailIdeal.lean ====
/-
  The idealized kernel program's result: the transpose of the kernel's class-major array, i.e. at `(n, k)` the
  distance `dist X A B n k`; and its run restated with the result and the arguments named.

  The host operation after the region reads the result array as the run left it (all the distances, class-major)
  and writes its transpose; it writes nothing else, so the arguments end as the run left them: unchanged.
-/
import proofs.«131704_j6150393168265_2_alg».proof.Proof.ArrayIdeal
import Idealize.ShloMosaic.Lib.StableHlo.Run
import Idealize.ShloMosaic.Lib.ValueLayout

set_option maxRecDepth 16384

noncomputable section

namespace Cert.KernelIdeal.TailIdeal

open Cert.KernelIdeal Cert.KernelIdeal.Gen Cert.KernelIdeal.Body Cert.KernelIdeal.Data Cert.KernelIdeal.Oblig
open Cert.KernelIdeal.StoredIdeal Cert.KernelIdeal.RunIdeal Cert.KernelIdeal.ArrayIdeal
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- All distances, feature-row-major. -/
def distNK (c : Dev nD) : S4096x100.Idx → Elt Ideal .f32 := fun i =>
  RbfSpec.dist (nB := 4096) (nK := 100) (m ((c : Thread nD τ).loc main_arg0)) (m ((c : Thread nD τ).loc main_arg1))
    (m ((c : Thread nD τ).loc main_arg2)) (⟨(i 0).val, (i 0).isLt⟩ : Fin 4096) (⟨(i 1).val, (i 1).isLt⟩ : Fin 100)

/-- The transposed result after the host operation. -/
theorem tail_eq (c : Dev nD) :
    Pipeline.afterTail₀ cfgs (dats m (outBlk m)) 0 (V0 m) [hostOps1] c main_v1 = distNK m c := by
  unfold Pipeline.afterTail₀
  show StableHlo.after hostOps1 _ (Proc.devRef .tc main_v1) = _
  after_results
  have hw : Pipeline.withArrays (cfgs 0).spec c (V0 m c) (fun w => (dats m (outBlk m) 0 c).arrAt w (cfgs 0).N)
      (Proc.devRef .tc main_v0) = distKN m c :=
    (Pipeline.withArrays_arr spec0 launch0.win.arr_inj c _ _ 3).trans (final m c)
  rw [hw]
  funext i
  obtain ⟨n, k, rfl⟩ : ∃ (n : Fin 4096) (k : Fin 100), i = ix2 n k := ⟨i 0, i 1, eq_ix2 i⟩
  rw [transpose_ix2_apply]
  rfl

/-- The transposed result's buffer is no array of the pipeline. -/
theorem result_rest : main_v1 ∈ Pipeline.restRefs sig (cfgs 0).spec :=
  Pipeline.mem_restRefs_of main_v1 rfl (fun w => by fin_cases w <;> decide)

/-- Every weakly fair execution terminates with the result at all the distances and the arguments unchanged. -/
theorem result_run : θ_run defs (onTc (τ := τ) (main (F := Ideal))) ⟨m, fun _ => 0, ρ⟩ (fun r => ∀ c : Dev nD,
      r.2.mem ((c.tc : Thread nD τ).loc main_v1) = distNK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v1 result_rest).trans (tail_eq m c),
      ((h c).1 0).trans (((dats m (outBlk m) 0 c).arrAt_in 0 rfl _).trans ((A_eq m (outBlk m) c 0).trans (V_main_arg0 m c))),
      ((h c).1 1).trans (((dats m (outBlk m) 0 c).arrAt_in 1 rfl _).trans ((A_eq m (outBlk m) c 1).trans (V_main_arg1 m c))),
      ((h c).1 2).trans (((dats m (outBlk m) 0 c).arrAt_in 2 rfl _).trans ((A_eq m (outBlk m) c 2).trans (V_main_arg2 m c)))⟩)
    (run_main m ρ)

end Cert.KernelIdeal.TailIdeal

end
-- ==== Proof.RefSpec.lean ====
/-
  The reference computes the specification: its result at `(n, k)` is `dist X A B n k`.

  The reference contracts the feature axis of `X` (4096 × 512) with the last axis of `A` (100 × 512 × 512) into
  `Σ_d X[n, d] · A[k, e, d]`, adds the bias `B[k, e]` broadcast over `n`, squares, sums over `e` from zero, and takes
  the root: at the extended reals, term for term, the specification's expression.
-/
import proofs.«131704_j6150393168265_2_alg».proof.Proof.Gen.ReferenceIdeal.Read
import proofs.«131704_j6150393168265_2_alg».proof.Proof.RbfSpec
import Idealize.ShloMosaic.Lib.ValueIdx
import Idealize.ShloMosaic.PureOps.Ideal.Laws

set_option maxRecDepth 16384

noncomputable section

namespace Cert.ReferenceIdeal.RefSpec

open Cert.ReferenceIdeal Cert.ReferenceIdeal.Gen Cert.ReferenceIdeal.Read
open Idealize.ShloMosaic Idealize.ShloMosaic.TcCoe Idealize.ShloMosaic.ValueIdx Idealize.SL.Sem

/-- All distances, feature-row-major: the common result of the two programs. -/
def distNK (X : (⟨S4096x512, .f32⟩ : BufTy).Contents (Elt Ideal)) (A : (⟨S100x512x512, .f32⟩ : BufTy).Contents (Elt Ideal))
    (B : (⟨S100x512, .f32⟩ : BufTy).Contents (Elt Ideal)) : (⟨S4096x100, .f32⟩ : BufTy).Contents (Elt Ideal) := fun i =>
  RbfSpec.dist (nB := 4096) (nK := 100) X A B (⟨(i 0).val, (i 0).isLt⟩ : Fin 4096) (⟨(i 1).val, (i 1).isLt⟩ : Fin 100)

theorem ref_apply (X : (⟨S4096x512, .f32⟩ : BufTy).Contents (Elt Ideal)) (A : (⟨S100x512x512, .f32⟩ : BufTy).Contents (Elt Ideal))
    (B : (⟨S100x512, .f32⟩ : BufTy).Contents (Elt Ideal)) (n : Fin 4096) (k : Fin 100) :
    val_main_v6 (F := Ideal) X A B (ix2 n k) = RbfSpec.dist (nB := 4096) (nK := 100) X A B n k := by
  have hl : ∀ e d : Fin 512, lidx_main_v0 (idx_main_v5 (ix2 n k) e) d = ix2 n d := fun e d =>
    funext fun a => Fin.ext (by match a with | ⟨0, _⟩ => rfl | ⟨1, _⟩ => rfl)
  have hr : ∀ e d : Fin 512, ridx_main_v0 (idx_main_v5 (ix2 n k) e) d = ix3 k e d := fun e d =>
    funext fun a => Fin.ext (by match a with | ⟨0, _⟩ => rfl | ⟨1, _⟩ => rfl | ⟨2, _⟩ => rfl)
  have hb : ∀ e : Fin 512, idx_main_v1 (idx_main_v2 (idx_main_v5 (ix2 n k) e)) = ix2 k e := fun e =>
    funext fun a => Fin.ext (by match a with | ⟨0, _⟩ => rfl | ⟨1, _⟩ => rfl)
  rw [val_main_v6_apply, val_main_v5_apply]
  show Ideal.sqrt (Ideal.ofBits .f32 0x00000000#32 + _) = _
  rw [Ideal.ofBits_zero_f32, zero_add]
  unfold RbfSpec.dist RbfSpec.affine
  refine congrArg Ideal.sqrt (Finset.sum_congr rfl fun e _ => ?_)
  rw [val_main_v4_apply, val_main_v3_apply, val_main_v0_apply, val_main_v2_apply, val_main_v1_apply]
  simp only [hl, hr, hb]
  rfl

/-- The reference's result is `distNK` of its arguments. -/
theorem ref_eq (X : (⟨S4096x512, .f32⟩ : BufTy).Contents (Elt Ideal)) (A : (⟨S100x512x512, .f32⟩ : BufTy).Contents (Elt Ideal))
    (B : (⟨S100x512, .f32⟩ : BufTy).Contents (Elt Ideal)) : val_main_v6 (F := Ideal) X A B = distNK X A B := by
  funext i
  obtain ⟨n, k, rfl⟩ : ∃ (n : Fin 4096) (k : Fin 100), i = ix2 n k := ⟨i 0, i 1, eq_ix2 i⟩
  exact ref_apply X A B n k

end Cert.ReferenceIdeal.RefSpec

end
-- ==== Proof.lean ====
/-
  The certificate: a Pallas kernel computing the distances `‖A_k x_n + b_k‖₂` of 4096 feature rows to 100 classes
  against its jnp reference.

  The kernel walks a 13 × 8 grid: 8 classes by 512 feature rows per point; the 100 classes are not a multiple of 8,
  so the thirteenth class tile holds four classes and four rows of words past the arrays' end. At each point it
  forms one 512 × 4096 product of the feature block with the eight stacked matrices, and per class adds the bias
  row, squares, sums along the row, and takes the root; the host then transposes the class-major result.
  The reference contracts, adds, squares, sums and takes the root over the whole arrays at once.

  * The three frames. The word-level kernel program's frame forgets the result window: the rows computed from the
    words past the arrays' end are never named, and the inputs are never written. The idealized kernel program's
    frame comes with its value run. The reference's frame is its run with the result dropped.
  * The idealization rewrote nothing, so there is nothing to preserve.
  * At the extended reals both programs end with `dist X A B n k` at every `(n, k)`: the kernel because the stored
    block at a point is the distances of the staged rows to the staged classes, the classes inside the array depend
    on no word past the arrays' end, and the points' blocks cover the result array; the reference term for term. No
    algebraic law beyond reading both sums in the same order is used, and the precondition is not needed.
-/
import proofs.«131704_j6150393168265_2_alg».proof.Defs
import proofs.«131704_j6150393168265_2_alg».proof.Proof.Gen.Kernel
import proofs.«131704_j6150393168265_2_alg».proof.Proof.Gen.KernelIdeal
import proofs.«131704_j6150393168265_2_alg».proof.Proof.Gen.ReferenceIdeal
import proofs.«131704_j6150393168265_2_alg».proof.Proof.Gen.ReferenceIdeal.Run
import proofs.«131704_j6150393168265_2_alg».proof.Proof.Gen.ReferenceIdeal.Read
import proofs.«131704_j6150393168265_2_alg».proof.Proof.Gen.Pre_finite_inputs
import proofs.«131704_j6150393168265_2_alg».proof.Proof.FrameBits
import proofs.«131704_j6150393168265_2_alg».proof.Proof.TailIdeal
import proofs.«131704_j6150393168265_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.FrameBits.frame (F := Bits) m ρ

theorem frame_ki : Cert.frame_KernelIdeal := fun m ρ _ => Cert.KernelIdeal.RunIdeal.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with all the distances, feature-row-major, of arguments that agree. -/
theorem algebraic : Cert.algebraic_KernelIdeal_ReferenceIdeal := by
  intro m ρ m' ρ' _ hagree
  refine ⟨fun c => Cert.KernelIdeal.TailIdeal.distNK m c, Cert.KernelIdeal.TailIdeal.result_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefSpec.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
